-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v31_0)) (v1 : (c : Dev Cert.KernelIdeal.nD) → Buf (Elt Ideal) ((c.tc : Thread Cert.KernelIdeal.nD Cert.KernelIdeal.τ).loc Cert.KernelIdeal.main_v31_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31_0) = v0 c
          ∧ r.2.mem ((c.tc : Thread Cert.KernelIdeal.nD Cert.KernelIdeal.τ).loc Cert.KernelIdeal.main_v31_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_v52) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S800000 : Shape := ⟨1, ![800000]⟩
abbrev S50000x96 : Shape := ⟨2, ![50000, 96]⟩
abbrev S96x96 : Shape := ⟨2, ![96, 96]⟩
abbrev S96x40 : Shape := ⟨2, ![96, 40]⟩
abbrev S40 : Shape := ⟨1, ![40]⟩
abbrev S_ : Shape := ⟨0, ![]⟩

class Facts : Prop where
  bcast_S_S800000 : S_.BroadcastsInDim S800000 (![] : Fin 0 → Fin S800000.rank)
  reducesTo_S800000_S_d0 : S800000.ReducesTo [0] S_
  h_S_ : 0 < S_.numel
  bcast_S_S50000x96 : S_.BroadcastsInDim S50000x96 (![] : Fin 0 → Fin S50000x96.rank)
  reducesTo_S50000x96_S_d0_1 : S50000x96.ReducesTo [0, 1] S_
  bcast_S_S96x96 : S_.BroadcastsInDim S96x96 (![] : Fin 0 → Fin S96x96.rank)
  reducesTo_S96x96_S_d0_1 : S96x96.ReducesTo [0, 1] S_
  bcast_S_S96x40 : S_.BroadcastsInDim S96x40 (![] : Fin 0 → Fin S96x40.rank)
  reducesTo_S96x40_S_d0_1 : S96x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg6 : FVec F S96x40 .f32) (main_arg7 : FVec F S40 .f32) (main_v13 : IVec S_ 1) (main_v16 : IVec S96x96 1) : IVec S_ 1 :=
  let main_c_5 : IVec S_ 1 := constantI S_ 1 1#1
  let main_v17 : IVec S_ 1 := (fun x v => Host.reduce IntOp.andi x v reducesTo_S96x96_S_d0_1 h_S_) main_v16 main_c_5
  let main_v18 : IVec S_ 1 := andi main_v13 main_v17
  let main_v19 : FVec F S96x40 .f32 := Host.absf main_arg6
  let main_cst_6 : FVec F S_ .f32 := constant S_ .f32 0x7F800000#32
  let main_v20 : FVec F S96x40 .f32 := broadcastInDim S96x40 ![] bcast_S_S96x40 main_cst_6
  let main_v21 : IVec S96x40 1 := cmpf .olt main_v19 main_v20
  let main_c_7 : IVec S_ 1 := constantI S_ 1 1#1
  let main_v22 : IVec S_ 1 := (fun x v => Host.reduce IntOp.andi x v reducesTo_S96x40_S_d0_1 h_S_) main_v21 main_c_7
  let main_v23 : IVec S_ 1 := andi main_v18 main_v22
  let main_v24 : FVec F S40 .f32 := Host.absf main_arg7
  let main_cst_8 : FVec F S_ .f32 := constant S_ .f32 0x7F800000#32
  let main_v25 : FVec F S40 .f32 := broadcastInDim S40 ![] bcast_S_S40 main_cst_8
  let main_v26 : IVec S40 1 := cmpf .olt main_v24 main_v25
  let main_c_9 : IVec S_ 1 := constantI S_ 1 1#1
  let main_v27 : IVec S_ 1 := (fun x v => Host.reduce IntOp.andi x v reducesTo_S40_S_d0 h_S_) main_v26 main_c_9
  let main_v28 : IVec S_ 1 := andi main_v23 main_v27
  main_v28

def fn {F : FTy → Type} [FloatOps F] (main_arg0 : IVec S800000 32) (main_arg1 : IVec S800000 32) (main_arg2 : FVec F S800000 .f32) (main_arg3 : FVec F S50000x96 .f32) (main_arg4 : FVec F S96x96 .f32) (main_arg5 : FVec F S96x96 .f32) (main_arg6 : FVec F S96x40 .f32) (main_arg7 : FVec F S40 .f32) : IVec S_ 1 :=
  let main_v0 : FVec F S800000 .f32 := Host.absf main_arg2
  let main_cst : FVec F S_ .f32 := constant S_ .f32 0x7F800000#32
  let main_v1 : FVec F S800000 .f32 := broadcastInDim S800000 ![] bcast_S_S800000 main_cst
  let main_v2 : IVec S800000 1 := cmpf .olt main_v0 main_v1
  let main_c : IVec S_ 1 := constantI S_ 1 1#1
  let main_v3 : IVec S_ 1 := (fun x v => Host.reduce IntOp.andi x v reducesTo_S800000_S_d0 h_S_) main_v2 main_c
  let main_v4 : FVec F S50000x96 .f32 := Host.absf main_arg3
  let main_cst_0 : FVec F S_ .f32 := constant S_ .f32 0x7F800000#32
  let main_v5 : FVec F S50000x96 .f32 := broadcastInDim S50000x96 ![] bcast_S_S50000x96 main_cst_0
  let main_v6 : IVec S50000x96 1 := cmpf .olt main_v4 main_v5
  let main_c_1 : IVec S_ 1 := constantI S_ 1 1#1
  let main_v7 : IVec S_ 1 := (fun x v => Host.reduce IntOp.andi x v reducesTo_S50000x96_S_d0_1 h_S_) main_v6 main_c_1
  let main_v8 : IVec S_ 1 := andi main_v3 main_v7
  let main_v9 : FVec F S96x96 .f32 := Host.absf main_arg4
  let main_cst_2 : FVec F S_ .f32 := constant S_ .f32 0x7F800000#32
  let main_v10 : FVec F S96x96 .f32 := broadcastInDim S96x96 ![] bcast_S_S96x96 main_cst_2
  let main_v11 : IVec S96x96 1 := cmpf .olt main_v9 main_v10
  let main_c_3 : IVec S_ 1 := constantI S_ 1 1#1
  let main_v12 : IVec S_ 1 := (fun x v => Host.reduce IntOp.andi x v reducesTo_S96x96_S_d0_1 h_S_) main_v11 main_c_3
  let main_v13 : IVec S_ 1 := andi main_v8 main_v12
  let main_v14 : FVec F S96x96 .f32 := Host.absf main_arg5
  let main_cst_4 : FVec F S_ .f32 := constant S_ .f32 0x7F800000#32
  let main_v15 : FVec F S96x96 .f32 := broadcastInDim S96x96 ![] bcast_S_S96x96 main_cst_4
  let main_v16 : IVec S96x96 1 := cmpf .olt main_v14 main_v15
  fn_part1 (F := F) main_arg6 main_arg7 main_v13 main_v16
-- ==== Kernel.lean ====
abbrev S800000 : Shape := ⟨1, ![800000]⟩
abbrev S50000x96 : Shape := ⟨2, ![50000, 96]⟩
abbrev S96x96 : Shape := ⟨2, ![96, 96]⟩
abbrev S96x40 : Shape := ⟨2, ![96, 40]⟩
abbrev S40 : Shape := ⟨1, ![40]⟩
abbrev S2000x96 : Shape := ⟨2, ![2000, 96]⟩
abbrev S800000x1 : Shape := ⟨2, ![800000, 1]⟩
abbrev S_ : Shape := ⟨0, ![]⟩
abbrev S800000x96 : Shape := ⟨2, ![800000, 96]⟩
abbrev S1x40 : Shape := ⟨2, ![1, 40]⟩
abbrev S50000x40 : Shape := ⟨2, ![50000, 40]⟩
abbrev S2000x40 : Shape := ⟨2, ![2000, 40]⟩
abbrev S2000 : Shape := ⟨1, ![2000]⟩
abbrev S2000x1 : Shape := ⟨2, ![2000, 1]⟩

abbrev nBuf : Space → Nat
  | .hbm => 51
  | .vmem => 18
  | .smem => 0
  | _ => 0

abbrev bufTy : (tb : Table) → Fin (tcTables nBuf tb) → BufTy
  | .hbm, ⟨0, _⟩ => ⟨S800000, .i32⟩
  | .hbm, ⟨1, _⟩ => ⟨S800000, .i32⟩
  | .hbm, ⟨2, _⟩ => ⟨S800000, .f32⟩
  | .hbm, ⟨3, _⟩ => ⟨S50000x96, .f32⟩
  | .hbm, ⟨4, _⟩ => ⟨S96x96, .f32⟩
  | .hbm, ⟨5, _⟩ => ⟨S96x96, .f32⟩
  | .hbm, ⟨6, _⟩ => ⟨S96x40, .f32⟩
  | .hbm, ⟨7, _⟩ => ⟨S40, .f32⟩
  | .hbm, ⟨8, _⟩ => ⟨S50000x96, .f32⟩
  | .hbm, ⟨9, _⟩ => ⟨S800000x1, .f32⟩
  | .hbm, ⟨10, _⟩ => ⟨S_, .i32⟩
  | .hbm, ⟨11, _⟩ => ⟨S800000, .i32⟩
  | .hbm, ⟨12, _⟩ => ⟨S800000, .i1⟩
  | .hbm, ⟨13, _⟩ => ⟨S_, .i32⟩
  | .hbm, ⟨14, _⟩ => ⟨S800000, .i32⟩
  | .hbm, ⟨15, _⟩ => ⟨S800000, .i32⟩
  | .hbm, ⟨16, _⟩ => ⟨S800000, .i32⟩
  | .hbm, ⟨17, _⟩ => ⟨S800000x1, .i32⟩
  | .hbm, ⟨18, _⟩ => ⟨S800000x96, .f32⟩
  | .hbm, ⟨19, _⟩ => ⟨S800000x96, .f32⟩
  | .hbm, ⟨20, _⟩ => ⟨S800000x96, .f32⟩
  | .hbm, ⟨21, _⟩ => ⟨S_, .f32⟩
  | .hbm, ⟨22, _⟩ => ⟨S50000x96, .f32⟩
  | .hbm, ⟨23, _⟩ => ⟨S800000x1, .i32⟩
  | .hbm, ⟨24, _⟩ => ⟨S50000x96, .f32⟩
  | .hbm, ⟨25, _⟩ => ⟨S_, .f32⟩
  | .hbm, ⟨26, _⟩ => ⟨S50000x96, .f32⟩
  | .hbm, ⟨27, _⟩ => ⟨S50000x96, .f32⟩
  | .hbm, ⟨28, _⟩ => ⟨S50000x96, .f32⟩
  | .hbm, ⟨29, _⟩ => ⟨S800000x1, .f32⟩
  | .hbm, ⟨30, _⟩ => ⟨S_, .i32⟩
  | .hbm, ⟨31, _⟩ => ⟨S800000, .i32⟩
  | .hbm, ⟨32, _⟩ => ⟨S800000, .i1⟩
  | .hbm, ⟨33, _⟩ => ⟨S_, .i32⟩
  | .hbm, ⟨34, _⟩ => ⟨S800000, .i32⟩
  | .hbm, ⟨35, _⟩ => ⟨S800000, .i32⟩
  | .hbm, ⟨36, _⟩ => ⟨S800000, .i32⟩
  | .hbm, ⟨37, _⟩ => ⟨S800000x1, .i32⟩
  | .hbm, ⟨38, _⟩ => ⟨S800000x96, .f32⟩
  | .hbm, ⟨39, _⟩ => ⟨S800000x96, .f32⟩
  | .hbm, ⟨40, _⟩ => ⟨S800000x96, .f32⟩
  | .hbm, ⟨41, _⟩ => ⟨S_, .f32⟩
  | .hbm, ⟨42, _⟩ => ⟨S50000x96, .f32⟩
  | .hbm, ⟨43, _⟩ => ⟨S800000x1, .i32⟩
  | .hbm, ⟨44, _⟩ => ⟨S50000x96, .f32⟩
  | .hbm, ⟨45, _⟩ => ⟨S_, .f32⟩
  | .hbm, ⟨46, _⟩ => ⟨S50000x96, .f32⟩
  | .hbm, ⟨47, _⟩ => ⟨S50000x96, .f32⟩
  | .hbm, ⟨48, _⟩ => ⟨S1x40, .f32⟩
  | .hbm, ⟨49, _⟩ => ⟨S50000x96, .f32⟩
  | .hbm, ⟨50, _⟩ => ⟨S50000x40, .f32⟩
  | .local _ .vmem, ⟨0, _⟩ => ⟨S2000x96, .f32⟩
  | .local _ .vmem, ⟨1, _⟩ => ⟨S2000x96, .f32⟩
  | .local _ .vmem, ⟨2, _⟩ => ⟨S96x96, .f32⟩
  | .local _ .vmem, ⟨3, _⟩ => ⟨S2000x96, .f32⟩
  | .local _ .vmem, ⟨4, _⟩ => ⟨S2000x96, .f32⟩
  | .local _ .vmem, ⟨5, _⟩ => ⟨S2000x96, .f32⟩
  | .local _ .vmem, ⟨6, _⟩ => ⟨S2000x96, .f32⟩
  | .local _ .vmem, ⟨7, _⟩ => ⟨S96x96, .f32⟩
  | .local _ .vmem, ⟨8, _⟩ => ⟨S2000x96, .f32⟩
  | .local _ .vmem, ⟨9, _⟩ => ⟨S2000x96, .f32⟩
  | .local _ .vmem, ⟨10, _⟩ => ⟨S2000x96, .f32⟩
  | .local _ .vmem, ⟨11, _⟩ => ⟨S2000x96, .f32⟩
  | .local _ .vmem, ⟨12, _⟩ => ⟨S96x40, .f32⟩
  | .local _ .vmem, ⟨13, _⟩ => ⟨S1x40, .f32⟩
  | .local _ .vmem, ⟨14, _⟩ => ⟨S2000x96, .f32⟩
  | .local _ .vmem, ⟨15, _⟩ => ⟨S2000x96, .f32⟩
  | .local _ .vmem, ⟨16, _⟩ => ⟨S2000x40, .f32⟩
  | .local _ .vmem, ⟨17, _⟩ => ⟨S2000x40, .f32⟩
  | _, _ => ⟨S800000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_v2 : Ref sig .tc := ⟨.hbm, 11, rfl⟩
abbrev main_v3 : Ref sig .tc := ⟨.hbm, 12, rfl⟩
abbrev main_c_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_call0_cst : Ref sig .tc := ⟨.hbm, 25, rfl⟩
abbrev main_call0_v0 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_c_1 : Ref sig .tc := ⟨.hbm, 30, rfl⟩
abbrev main_v17 : Ref sig .tc := ⟨.hbm, 31, rfl⟩
abbrev main_v18 : Ref sig .tc := ⟨.hbm, 32, rfl⟩
abbrev main_c_2 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_3 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_call1_cst : Ref sig .tc := ⟨.hbm, 45, rfl⟩
abbrev main_call1_v0 : Ref sig .tc := ⟨.hbm, 46, rfl⟩
abbrev main_v29 : Ref sig .tc := ⟨.hbm, 47, rfl⟩
abbrev main_v30 : Ref sig .tc := ⟨.hbm, 48, rfl⟩
abbrev main_v31_0 : Ref sig .tc := ⟨.hbm, 49, rfl⟩
abbrev main_v31_1 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg3_0 : Ref sig .tc := ⟨.vmem, 14, rfl⟩
abbrev cc2_stg3_1 : Ref sig .tc := ⟨.vmem, 15, rfl⟩
abbrev cc2_stg4_0 : Ref sig .tc := ⟨.vmem, 16, rfl⟩
abbrev cc2_stg4_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem3_0 : DmaSem sig := 14
abbrev cc2_sem3_1 : DmaSem sig := 15
abbrev cc2_sem4_0 : DmaSem sig := 16
abbrev cc2_sem4_1 : DmaSem sig := 17

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x96 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S96x96 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x96 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x96 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S96x96 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x96 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x96 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S96x40 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x40 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2000x96 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S2000x40 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  inb_S2000x96_S2000x96_0_0 : ∀ a, (![0, 0] : Fin 2 → Nat) a + S2000x96.size a ≤ S2000x96.size a
  h_S2000x96 : 0 < S2000x96.numel
  bitsLt_bf16_f32 : FTy.bits .bf16 < FTy.bits .f32
  inb_S96x96_S96x96_0_0 : ∀ a, (![0, 0] : Fin 2 → Nat) a + S96x96.size a ≤ S96x96.size a
  h_S96x96 : 0 < S96x96.numel
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x96_0_1 : S800000x1.BroadcastsInDim S800000x96 (![0, 1] : Fin 2 → Fin S800000x96.rank)
  bcast_S_S50000x96 : S_.BroadcastsInDim S50000x96 (![] : Fin 0 → Fin S50000x96.rank)
  shapeCasts_S2000x96_S2000x96 : S2000x96.ShapeCasts S2000x96
  shapeCasts_S40_S1x40 : S40.ShapeCasts S1x40
  reduces_S2000x96_S2000 : S2000x96.Reduces [1] S2000
  shapeCasts_S2000_S2000x1 : S2000.ShapeCasts S2000x1
  broadcasts_S2000x1_S2000x96 : S2000x1.Broadcasts S2000x96
  inb_S96x40_S96x40_0_0 : ∀ a, (![0, 0] : Fin 2 → Nat) a + S96x40.size a ≤ S96x40.size a
  h_S96x40 : 0 < S96x40.numel
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S2000x40 : S1x40.Broadcasts S2000x40
  reduces_S2000x40_S2000 : S2000x40.Reduces [1] S2000
  broadcasts_S2000x1_S2000x40 : S2000x1.Broadcasts S2000x40
  inb_S2000x40_S2000x40_0_0 : ∀ a, (![0, 0] : Fin 2 → Nat) a + S2000x40.size a ≤ S2000x40.size a
  h_S2000x40 : 0 < S2000x40.numel
  dot_S2000x96_S96x96_S2000x96_1_0_0_1_n_n_wf : DotDims.WF S2000x96 S96x96 S2000x96 [1] [0] [0] [1] [] []
  gather_S50000x96_S800000x1_S800000x96_1_0_n_n_0_1_196_wf : GatherDims.WF S50000x96 S800000x1 S800000x96 [1] [0] [] [0] [] 1 ![1, 96]
  scatter_S50000x96_S800000x1_S800000x96_1_0_0_1_wf : ScatterDims.WF S50000x96 S800000x1 S800000x96 [1] [0] [0] 1
  dot_S2000x96_S96x40_S2000x40_1_0_0_1_n_n_wf : DotDims.WF S2000x96 S96x40 S2000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x96.size a ≤ S50000x96.size a
  hwx0_0 : ∀ i : grid0.Coords, EltTy.bits .f32 = 32 ∨ (Rect.block (s := S50000x96) S2000x96.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S96x96.size a ≤ S96x96.size a
  hwx0_1 : ∀ i : grid0.Coords, EltTy.bits .f32 = 32 ∨ (Rect.block (s := S96x96) S96x96.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x96.size a ≤ S50000x96.size a
  hwx0_2 : ∀ i : grid0.Coords, EltTy.bits .f32 = 32 ∨ (Rect.block (s := S50000x96) S2000x96.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x96.size a ≤ S50000x96.size a
  hwx1_0 : ∀ i : grid1.Coords, EltTy.bits .f32 = 32 ∨ (Rect.block (s := S50000x96) S2000x96.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S96x96.size a ≤ S96x96.size a
  hwx1_1 : ∀ i : grid1.Coords, EltTy.bits .f32 = 32 ∨ (Rect.block (s := S96x96) S96x96.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x96.size a ≤ S50000x96.size a
  hwx1_2 : ∀ i : grid1.Coords, EltTy.bits .f32 = 32 ∨ (Rect.block (s := S50000x96) S2000x96.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x96.size a ≤ S50000x96.size a
  hwx2_0 : ∀ i : grid2.Coords, EltTy.bits .f32 = 32 ∨ (Rect.block (s := S50000x96) S2000x96.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S96x40.size a ≤ S96x40.size a
  hwx2_1 : ∀ i : grid2.Coords, EltTy.bits .f32 = 32 ∨ (Rect.block (s := S96x40) S96x40.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x40.size a ≤ S1x40.size a
  hwx2_2 : ∀ i : grid2.Coords, EltTy.bits .f32 = 32 ∨ (Rect.block (s := S1x40) S1x40.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x96.size a ≤ S50000x96.size a
  hwx2_3 : ∀ i : grid2.Coords, EltTy.bits .f32 = 32 ∨ (Rect.block (s := S50000x96) S2000x96.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S2000x40.size a ≤ S50000x40.size a
  hwx2_4 : ∀ i : grid2.Coords, EltTy.bits .f32 = 32 ∨ (Rect.block (s := S50000x40) S2000x40.size (cc2_transform_4 i) (hinb2_4 i)).WholeWords (EltTy.packing .f32)

variable [Facts₀]

def dot_S2000x96_S96x96_S2000x96_1_0_0_1_n_n : DotDims S2000x96 S96x96 S2000x96 where
  lhsContracting := [1]
  rhsContracting := [0]
  lhsNonContracting := [0]
  rhsNonContracting := [1]
  lhsBatch := []
  rhsBatch := []
  wf := dot_S2000x96_S96x96_S2000x96_1_0_0_1_n_n_wf
def gather_S50000x96_S800000x1_S800000x96_1_0_n_n_0_1_196 : GatherDims S50000x96 S800000x1 S800000x96 where
  offsetDims := [1]
  collapsedSliceDims := [0]
  operandBatchingDims := []
  startIndicesBatchingDims := []
  startIndexMap := [0]
  indexVectorDim := 1
  sliceSizes := ![1, 96]
  wf := gather_S50000x96_S800000x1_S800000x96_1_0_n_n_0_1_196_wf
def scatter_S50000x96_S800000x1_S800000x96_1_0_0_1 : ScatterDims S50000x96 S800000x1 S800000x96 where
  updateWindowDims := [1]
  insertedWindowDims := [0]
  scatterDimsToOperandDims := [0]
  indexVectorDim := 1
  wf := scatter_S50000x96_S800000x1_S800000x96_1_0_0_1_wf
def dot_S2000x96_S96x40_S2000x40_1_0_0_1_n_n : DotDims S2000x96 S96x40 S2000x40 where
  lhsContracting := [1]
  rhsContracting := [0]
  lhsNonContracting := [0]
  rhsNonContracting := [1]
  lhsBatch := []
  rhsBatch := []
  wf := dot_S2000x96_S96x40_S2000x40_1_0_0_1_n_n_wf

abbrev win0_0 : Pipeline.Window sig grid0 :=
  Pipeline.Window.ofSpec (Memref.whole main_arg3) S2000x96.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S96x96.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2000x96.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v14) S2000x96.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S96x96.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v15) S2000x96.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v29) S2000x96.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S96x40.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v30) S1x40.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v31_0) S2000x96.size cc2_transform_3 reads2_3 true false 2 stage2_3 sem2_3
    hrank2 hreads2_3 hinb2_3 nbuf2_3 (Memref.isWhole_whole _) hwx2_3 hstage2_3

abbrev win2_4 : Pipeline.Window sig grid2 :=
  Pipeline.Window.ofSpec (Memref.whole main_v31_1) S2000x40.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S800000 : Shape := ⟨1, ![800000]⟩
abbrev S50000x96 : Shape := ⟨2, ![50000, 96]⟩
abbrev S96x96 : Shape := ⟨2, ![96, 96]⟩
abbrev S96x40 : Shape := ⟨2, ![96, 40]⟩
abbrev S40 : Shape := ⟨1, ![40]⟩
abbrev S800000x1 : Shape := ⟨2, ![800000, 1]⟩
abbrev S_ : Shape := ⟨0, ![]⟩
abbrev S800000x96 : Shape := ⟨2, ![800000, 96]⟩
abbrev S50000 : Shape := ⟨1, ![50000]⟩
abbrev S50000x1 : Shape := ⟨2, ![50000, 1]⟩
abbrev S50000x40 : Shape := ⟨2, ![50000, 40]⟩
abbrev S1x40 : Shape := ⟨2, ![1, 40]⟩

abbrev nBuf : Space → Nat
  | .hbm => 76
  | .vmem => 0
  | .smem => 0
  | _ => 0

abbrev bufTy : (tb : Table) → Fin (tcTables nBuf tb) → BufTy
  | .hbm, ⟨0, _⟩ => ⟨S800000, .i32⟩
  | .hbm, ⟨1, _⟩ => ⟨S800000, .i32⟩
  | .hbm, ⟨2, _⟩ => ⟨S800000, .f32⟩
  | .hbm, ⟨3, _⟩ => ⟨S50000x96, .f32⟩
  | .hbm, ⟨4, _⟩ => ⟨S96x96, .f32⟩
  | .hbm, ⟨5, _⟩ => ⟨S96x96, .f32⟩
  | .hbm, ⟨6, _⟩ => ⟨S96x40, .f32⟩
  | .hbm, ⟨7, _⟩ => ⟨S40, .f32⟩
  | .hbm, ⟨8, _⟩ => ⟨S50000x96, .f32⟩
  | .hbm, ⟨9, _⟩ => ⟨S800000x1, .f32⟩
  | .hbm, ⟨10, _⟩ => ⟨S_, .i32⟩
  | .hbm, ⟨11, _⟩ => ⟨S800000, .i32⟩
  | .hbm, ⟨12, _⟩ => ⟨S800000, .i1⟩
  | .hbm, ⟨13, _⟩ => ⟨S_, .i32⟩
  | .hbm, ⟨14, _⟩ => ⟨S800000, .i32⟩
  | .hbm, ⟨15, _⟩ => ⟨S800000, .i32⟩
  | .hbm, ⟨16, _⟩ => ⟨S800000, .i32⟩
  | .hbm, ⟨17, _⟩ => ⟨S800000x1, .i32⟩
  | .hbm, ⟨18, _⟩ => ⟨S800000x96, .f32⟩
  | .hbm, ⟨19, _⟩ => ⟨S800000x96, .f32⟩
  | .hbm, ⟨20, _⟩ => ⟨S800000x96, .f32⟩
  | .hbm, ⟨21, _⟩ => ⟨S_, .f32⟩
  | .hbm, ⟨22, _⟩ => ⟨S50000x96, .f32⟩
  | .hbm, ⟨23, _⟩ => ⟨S800000x1, .i32⟩
  | .hbm, ⟨24, _⟩ => ⟨S50000x96, .f32⟩
  | .hbm, ⟨25, _⟩ => ⟨S_, .f32⟩
  | .hbm, ⟨26, _⟩ => ⟨S50000x96, .f32⟩
  | .hbm, ⟨27, _⟩ => ⟨S50000x96, .f32⟩
  | .hbm, ⟨28, _⟩ => ⟨S50000x96, .f32⟩
  | .hbm, ⟨29, _⟩ => ⟨S800000x1, .f32⟩
  | .hbm, ⟨30, _⟩ => ⟨S_, .i32⟩
  | .hbm, ⟨31, _⟩ => ⟨S800000, .i32⟩
  | .hbm, ⟨32, _⟩ => ⟨S800000, .i1⟩
  | .hbm, ⟨33, _⟩ => ⟨S_, .i32⟩
  | .hbm, ⟨34, _⟩ => ⟨S800000, .i32⟩
  | .hbm, ⟨35, _⟩ => ⟨S800000, .i32⟩
  | .hbm, ⟨36, _⟩ => ⟨S800000, .i32⟩
  | .hbm, ⟨37, _⟩ => ⟨S800000x1, .i32⟩
  | .hbm, ⟨38, _⟩ => ⟨S800000x96, .f32⟩
  | .hbm, ⟨39, _⟩ => ⟨S800000x96, .f32⟩
  | .hbm, ⟨40, _⟩ => ⟨S800000x96, .f32⟩
  | .hbm, ⟨41, _⟩ => ⟨S_, .f32⟩
  | .hbm, ⟨42, _⟩ => ⟨S50000x96, .f32⟩
  | .hbm, ⟨43, _⟩ => ⟨S800000x1, .i32⟩
  | .hbm, ⟨44, _⟩ => ⟨S50000x96, .f32⟩
  | .hbm, ⟨45, _⟩ => ⟨S_, .f32⟩
  | .hbm, ⟨46, _⟩ => ⟨S50000x96, .f32⟩
  | .hbm, ⟨47, _⟩ => ⟨S50000x96, .f32⟩
  | .hbm, ⟨48, _⟩ => ⟨S50000x96, .f32⟩
  | .hbm, ⟨49, _⟩ => ⟨S_, .f32⟩
  | .hbm, ⟨50, _⟩ => ⟨S50000, .f32⟩
  | .hbm, ⟨51, _⟩ => ⟨S50000x1, .f32⟩
  | .hbm, ⟨52, _⟩ => ⟨S_, .f32⟩
  | .hbm, ⟨53, _⟩ => ⟨S50000x1, .f32⟩
  | .hbm, ⟨54, _⟩ => ⟨S50000x1, .f32⟩
  | .hbm, ⟨55, _⟩ => ⟨S50000x1, .f32⟩
  | .hbm, ⟨56, _⟩ => ⟨S50000x96, .f32⟩
  | .hbm, ⟨57, _⟩ => ⟨S50000x96, .f32⟩
  | .hbm, ⟨58, _⟩ => ⟨S50000x40, .f32⟩
  | .hbm, ⟨59, _⟩ => ⟨S1x40, .f32⟩
  | .hbm, ⟨60, _⟩ => ⟨S50000x40, .f32⟩
  | .hbm, ⟨61, _⟩ => ⟨S50000x40, .f32⟩
  | .hbm, ⟨62, _⟩ => ⟨S_, .f32⟩
  | .hbm, ⟨63, _⟩ => ⟨S50000, .f32⟩
  | .hbm, ⟨64, _⟩ => ⟨S_, .f32⟩
  | .hbm, ⟨65, _⟩ => ⟨S50000, .f32⟩
  | .hbm, ⟨66, _⟩ => ⟨S50000, .f32⟩
  | .hbm, ⟨67, _⟩ => ⟨S50000x1, .f32⟩
  | .hbm, ⟨68, _⟩ => ⟨S50000x40, .f32⟩
  | .hbm, ⟨69, _⟩ => ⟨S50000x40, .f32⟩
  | .hbm, ⟨70, _⟩ => ⟨S50000x40, .f32⟩
  | .hbm, ⟨71, _⟩ => ⟨S_, .f32⟩
  | .hbm, ⟨72, _⟩ => ⟨S50000, .f32⟩
  | .hbm, ⟨73, _⟩ => ⟨S50000x1, .f32⟩
  | .hbm, ⟨74, _⟩ => ⟨S50000x40, .f32⟩
  | .hbm, ⟨75, _⟩ => ⟨S50000x40, .f32⟩
  | _, _ => ⟨S800000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_v2 : Ref sig .tc := ⟨.hbm, 11, rfl⟩
abbrev main_v3 : Ref sig .tc := ⟨.hbm, 12, rfl⟩
abbrev main_c_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_call0_cst : Ref sig .tc := ⟨.hbm, 25, rfl⟩
abbrev main_call0_v0 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_c_1 : Ref sig .tc := ⟨.hbm, 30, rfl⟩
abbrev main_v17 : Ref sig .tc := ⟨.hbm, 31, rfl⟩
abbrev main_v18 : Ref sig .tc := ⟨.hbm, 32, rfl⟩
abbrev main_c_2 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_3 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_call1_cst : Ref sig .tc := ⟨.hbm, 45, rfl⟩
abbrev main_call1_v0 : Ref sig .tc := ⟨.hbm, 46, rfl⟩
abbrev main_v29 : Ref sig .tc := ⟨.hbm, 47, rfl⟩
abbrev main_v30 : Ref sig .tc := ⟨.hbm, 48, rfl⟩
abbrev main_cst_4 : Ref sig .tc := ⟨.hbm, 49, rfl⟩
abbrev main_v31 : Ref sig .tc := ⟨.hbm, 50, rfl⟩
abbrev main_v32 : Ref sig .tc := ⟨.hbm, 51, rfl⟩
abbrev main_cst_5 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_6 : Ref sig .tc := ⟨.hbm, 62, rfl⟩
abbrev main_v42 : Ref sig .tc := ⟨.hbm, 63, rfl⟩
abbrev main_cst_7 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_cst_8 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩

abbrev nD : Nat := 1
abbrev τ : Topo := Topo.v7x

variable {F : FTy → Type} [FloatOps F]

class Facts₀ : Prop where
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x96_0_1 : S800000x1.BroadcastsInDim S800000x96 (![0, 1] : Fin 2 → Fin S800000x96.rank)
  bcast_S_S50000x96 : S_.BroadcastsInDim S50000x96 (![] : Fin 0 → Fin S50000x96.rank)
  reducesTo_S50000x96_S50000_d1 : S50000x96.ReducesTo [1] S50000
  h_S_ : 0 < S_.numel
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x96_0_1 : S50000x1.BroadcastsInDim S50000x96 (![0, 1] : Fin 2 → Fin S50000x96.rank)
  bcast_S40_S1x40_1 : S40.BroadcastsInDim S1x40 (![1] : Fin 1 → Fin S1x40.rank)
  bcast_S1x40_S50000x40_0_1 : S1x40.BroadcastsInDim S50000x40 (![0, 1] : Fin 2 → Fin S50000x40.rank)
  reducesTo_S50000x40_S50000_d1 : S50000x40.ReducesTo [1] S50000
  bcast_S_S50000 : S_.BroadcastsInDim S50000 (![] : Fin 0 → Fin S50000.rank)
  bcast_S50000x1_S50000x40_0_1 : S50000x1.BroadcastsInDim S50000x40 (![0, 1] : Fin 2 → Fin S50000x40.rank)
  dot_S50000x96_S96x96_S50000x96_1_0_0_1_n_n_wf : DotDims.WF S50000x96 S96x96 S50000x96 [1] [0] [0] [1] [] []
  gather_S50000x96_S800000x1_S800000x96_1_0_n_n_0_1_196_wf : GatherDims.WF S50000x96 S800000x1 S800000x96 [1] [0] [] [0] [] 1 ![1, 96]
  scatter_S50000x96_S800000x1_S800000x96_1_0_0_1_wf : ScatterDims.WF S50000x96 S800000x1 S800000x96 [1] [0] [0] 1
  dot_S50000x96_S96x40_S50000x40_1_0_0_1_n_n_wf : DotDims.WF S50000x96 S96x40 S50000x40 [1] [0] [0] [1] [] []

variable [Facts₀]

def dot_S50000x96_S96x96_S50000x96_1_0_0_1_n_n : DotDims S50000x96 S96x96 S50000x96 where
  lhsContracting := [1]
  rhsContracting := [0]
  lhsNonContracting := [0]
  rhsNonContracting := [1]
  lhsBatch := []
  rhsBatch := []
  wf := dot_S50000x96_S96x96_S50000x96_1_0_0_1_n_n_wf
def gather_S50000x96_S800000x1_S800000x96_1_0_n_n_0_1_196 : GatherDims S50000x96 S800000x1 S800000x96 where
  offsetDims := [1]
  collapsedSliceDims := [0]
  operandBatchingDims := []
  startIndicesBatchingDims := []
  startIndexMap := [0]
  indexVectorDim := 1
  sliceSizes := ![1, 96]
  wf := gather_S50000x96_S800000x1_S800000x96_1_0_n_n_0_1_196_wf
def scatter_S50000x96_S800000x1_S800000x96_1_0_0_1 : ScatterDims S50000x96 S800000x1 S800000x96 where
  updateWindowDims := [1]
  insertedWindowDims := [0]
  scatterDimsToOperandDims := [0]
  indexVectorDim := 1
  wf := scatter_S50000x96_S800000x1_S800000x96_1_0_0_1_wf
def dot_S50000x96_S96x40_S50000x40_1_0_0_1_n_n : DotDims S50000x96 S96x40 S50000x40 where
  lhsContracting := [1]
  rhsContracting := [0]
  lhsNonContracting := [0]
  rhsNonContracting := [1]
  lhsBatch := []
  rhsBatch := []
  wf := dot_S50000x96_S96x40_S50000x40_1_0_0_1_n_n_wf

class Facts : Prop extends Facts₀ where

variable [Facts]
-- ==== Proof.LastBoundary.lean ====
/-
  The idealized kernel's run, read at its last boundary.

  @main is eight segments: three pipelined kernel regions and five stretches of host operations between them.
  The generated frame names the buffer contents at every segment boundary as a fold from the launch memory
  (`Gen.W0` … `Gen.W8`): a host stretch maps the contents to `StableHlo.after` of its operations, a region
  replaces its windows' arrays by what its write-backs leave. Here the launch theorem for such a list of segments
  is cited once more, keeping ALL of the last boundary: every weakly fair execution terminates, nothing faults,
  and every buffer that is not a kernel's private staging space ends at `Gen.W8`. The two result arrays and the
  argument arrays are then read off that one statement.
-/
import proofs.«108269_j85718957294354_1_alg».proof.Proof.Gen.KernelIdeal.Frame

set_option maxRecDepth 16384

noncomputable section

namespace Cert.KernelIdeal.LastBoundary

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault, and in its final memory every buffer outside
    the kernels' staging space holds the last boundary's contents. -/
theorem run_last : θ_run defs (onTc (τ := τ) (main (F := F))) ⟨m, fun _ => 0, ρ⟩ (fun r => ∀ c : Dev nD,
      ∀ b ∈ Pipeline.ucRefs τ sig, r.2.mem (((c : Thread nD τ)).1, b) = W8 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h => h)

/-- The run with the two result arrays named — each at the last boundary's contents of its buffer — and the
    eight argument arrays as launched. -/
theorem run_results : θ_run defs (onTc (τ := τ) (main (F := F))) ⟨m, fun _ => 0, ρ⟩ (fun r => ∀ c : Dev nD,
      r.2.mem ((c.tc : Thread nD τ).loc main_v31_0) = W8 m ρ c (Proc.devRef .tc main_v31_0)
      ∧ r.2.mem ((c.tc : Thread nD τ).loc main_v31_1) = W8 m ρ c (Proc.devRef .tc main_v31_1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨h c _ (mem_uc main_v31_0 (by decide)),
     h c _ (mem_uc main_v31_1 (by decide)),
     (h c _ (mem_uc main_arg0 (by decide))).trans (W8_main_arg0 m ρ c),
     (h c _ (mem_uc main_arg1 (by decide))).trans (W8_main_arg1 m ρ c),
     (h c _ (mem_uc main_arg2 (by decide))).trans (W8_main_arg2 m ρ c),
     (h c _ (mem_uc main_arg3 (by decide))).trans (W8_main_arg3 m ρ c),
     (h c _ (mem_uc main_arg4 (by decide))).trans (W8_main_arg4 m ρ c),
     (h c _ (mem_uc main_arg5 (by decide))).trans (W8_main_arg5 m ρ c),
     (h c _ (mem_uc main_arg6 (by decide))).trans (W8_main_arg6 m ρ c),
     (h c _ (mem_uc main_arg7 (by decide))).trans (W8_main_arg7 m ρ c)⟩)
    (run_last m ρ)

end Cert.KernelIdeal.LastBoundary

end
-- ==== Proof.LibPlainDot.lean ====
/-
  The plain product of an M×K matrix by a K×N matrix, read at one entry, at the ideal values:
  entry (a, b) is the sum over the contracted coordinate c of A(a, c) · B(c, b).
  Stated for ANY dimension record equal to the plain one (rows × contraction by contraction × columns, no batch
  axis), for a kernel's matrix product accumulated into the zero splat and for the host's product, which has no
  accumulator: adding to zero is the only arithmetic used, so both hold at the infinities too.
-/
import Idealize.ShloMosaic.Lib.StackMember

noncomputable section

namespace Cert.LibPlainDot

open Idealize.ShloMosaic Idealize.ShloMosaic.ValueIdx
open scoped BigOperators

variable {M K N : Nat} {φ₁ φ₂ : FTy}

/-- The host's plain product at entry (a, b): the sum over c of A(a, c) · B(c, b). -/
theorem dotGeneral_plain_apply (D : DotDims ⟨2, ![M, K]⟩ ⟨2, ![K, N]⟩ ⟨2, ![M, N]⟩) (hD : D = DotDims.plain M K N)
    (prec : Option ContractPrecision) (A : FVec Ideal ⟨2, ![M, K]⟩ φ₁) (B : FVec Ideal ⟨2, ![K, N]⟩ φ₂)
    (a : Fin M) (b : Fin N) :
    Host.dotGeneral D prec A B (ix2 a b) = ∑ c : Fin K, A (ix2 a c) * B (ix2 c b) := by
  subst hD
  exact StackMember.dotGeneral_plain_apply prec A B a b

/-- A kernel's plain product accumulated into the zero splat, at entry (a, b): the same sum. -/
theorem matmul_plain_zero_apply (D : DotDims ⟨2, ![M, K]⟩ ⟨2, ![K, N]⟩ ⟨2, ![M, N]⟩) (hD : D = DotDims.plain M K N)
    (prec : Option ContractPrecision) (A : FVec Ideal ⟨2, ![M, K]⟩ φ₁) (B : FVec Ideal ⟨2, ![K, N]⟩ φ₂)
    (a : Fin M) (b : Fin N) :
    matmul D prec A B (constant (F := Ideal) ⟨2, ![M, N]⟩ .f32 0x00000000#32) (ix2 a b)
      = ∑ c : Fin K, A (ix2 a c) * B (ix2 c b) := by
  rw [matmul_zero_eq_dotGeneral]
  exact dotGeneral_plain_apply D hD prec A B a b

end Cert.LibPlainDot

end
-- ==== Proof.Projection.lean ====
/-
  The two dense projections: each block of 2000 rows of the kernel's product is that block of rows of the whole product.
-/
import proofs.«108269_j85718957294354_1_alg».proof.Proof.Gen.KernelIdeal.Frame
import proofs.«108269_j85718957294354_1_alg».proof.Proof.Gen.ReferenceIdeal.Read
import proofs.«108269_j85718957294354_1_alg».proof.Proof.LibPlainDot
import Idealize.ShloMosaic.Lib.Pipeline.Value
import Idealize.ShloMosaic.Lib.ValueIdx

set_option maxRecDepth 16384

noncomputable section

namespace Cert.KernelIdeal.Projection

open Cert.KernelIdeal Cert.KernelIdeal.Gen
open Idealize.ShloMosaic Idealize.ShloMosaic.TcCoe Idealize.ShloMosaic.ValueIdx Idealize.SL.Sem
open scoped BigOperators

theorem origin2 : (![0, 0] : Fin 2 → Nat) = fun _ => 0 := funext fun a => by fin_cases a <;> rfl

/-- Entry (r, q) of the first region's block product: the sum over k of x(r, k) · w(k, q). Rounding the operands to
    bf16 is the identity on the extended reals, and the accumulator is the zero splat. -/
theorem block_product0 (x : Vec Ideal S2000x96 .f32) (w : Vec Ideal S96x96 .f32) (r : Fin 2000) (q : Fin 96) :
    k0_pay1 (F := Ideal) x w (ix2 r q) = ∑ k : Fin 96, x (ix2 r k) * w (ix2 k q) := by
  unfold k0_pay1
  exact Cert.LibPlainDot.matmul_plain_zero_apply _ rfl none _ _ r q

/-- Entry (r, q) of the second region's block product (its operand block passes through a cast to its own shape). -/
theorem block_product1 (x : Vec Ideal S2000x96 .f32) (w : Vec Ideal S96x96 .f32) (r : Fin 2000) (q : Fin 96) :
    k1_pay1 (F := Ideal) x w (ix2 r q) = ∑ k : Fin 96, x (ix2 r k) * w (ix2 k q) := by
  unfold k1_pay1
  refine (Cert.LibPlainDot.matmul_plain_zero_apply _ rfl none _ _ r q).trans ?_
  refine Finset.sum_congr rfl fun k _ => ?_
  rw [truncf_apply, truncf_apply, shapeCast_self]

/-! ## Region 0: x · w1 -/

/-- The printed index maps of region 0 over its 25 grid points: the row-block index of the operand and of the result
    is the point, every other block index is 0. -/
theorem index_maps0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t of region 0 writes back is block t — rows 2000·t … 2000·t + 1999 — of the whole product of the two
    arrays the region finds: row r of the operand's block is row 2000·t + r of the operand, and the weights' one block
    is the whole weight matrix. -/
theorem flushed0 (V : (c : Dev nD) → (b : Ref sig .tc) → Buf (Elt Ideal) ((c : Thread nD τ).loc b)) (c : Dev nD)
    (x3 : (⟨Cert.ReferenceIdeal.S50000x96, .f32⟩ : BufTy).Contents (Elt Ideal)) (x4 : (⟨Cert.ReferenceIdeal.S96x96, .f32⟩ : BufTy).Contents (Elt Ideal))
    (h3 : V c main_arg3 = x3) (h4 : V c main_arg4 = x4) (t : Fin cfg0.N) :
    (dat0 V c).flushed 2 t = ((cfg0.win 2).blk t).view.read (Elt Ideal) (Cert.ReferenceIdeal.Read.val_main_v0 (F := Ideal) x3 x4) := by
  show (cfg0.win 2).cut (grid0.coords t) ((dat0 V c).after 2 t) = _
  rw [after0_2]
  unfold out0_2
  rw [View.canon_unit_zero origin2]
  simp only [View.ld_unit_zero (S := S2000x96) origin2, View.ld_unit_zero (S := S96x96) origin2]
  funext j
  obtain ⟨r, q, rfl⟩ : ∃ (r : Fin 2000) (q : Fin 96), j = ix2 r q := ⟨j 0, j 1, eq_ix2 j⟩
  show k0_pay1 (iblk0 V c 0 t) (iblk0 V c 1 t) (ix2 r q)
    = Cert.ReferenceIdeal.Read.val_main_v0 (F := Ideal) x3 x4 (((cfg0.win 2).blk t).view.emb (ix2 r q))
  rw [Cert.ReferenceIdeal.Read.val_main_v0_apply]
  refine (block_product0 (iblk0 V c 0 t) (iblk0 V c 1 t) r q).trans ?_
  refine Finset.sum_congr rfl fun k _ => ?_
  obtain ⟨e0, e1, e2, e3, e4, e5⟩ := index_maps0 t
  have hl : iblk0 V c 0 t (ix2 r k)
      = x3 (Cert.ReferenceIdeal.Read.lidx_main_v0 (((cfg0.win 2).blk t).view.emb (ix2 r q)) k) := by
    show V c main_arg3 (((cfg0.win 0).blk t).view.emb (ix2 r k)) = _
    rw [h3]
    refine congrArg _ (funext fun a => Fin.ext ?_)
    match a with
    | ⟨0, _⟩ => show win0_0.index t (0 : Fin 2) * 2000 + 1 * r.val = win0_2.index t (0 : Fin 2) * 2000 + 1 * r.val; omega
    | ⟨1, _⟩ => show win0_0.index t (1 : Fin 2) * 96 + 1 * k.val = k.val; omega
  have hr : iblk0 V c 1 t (ix2 k q)
      = x4 (Cert.ReferenceIdeal.Read.ridx_main_v0 (((cfg0.win 2).blk t).view.emb (ix2 r q)) k) := by
    show V c main_arg4 (((cfg0.win 1).blk t).view.emb (ix2 k q)) = _
    rw [h4]
    refine congrArg _ (funext fun a => Fin.ext ?_)
    match a with
    | ⟨0, _⟩ => show win0_1.index t (0 : Fin 2) * 96 + 1 * k.val = k.val; omega
    | ⟨1, _⟩ => show win0_1.index t (1 : Fin 2) * 96 + 1 * q.val = win0_2.index t (1 : Fin 2) * 96 + 1 * q.val; omega
  rw [hl, hr]

/-- An index of the result array lies in point t's block iff each coordinate lies in the block's range on its axis. -/
theorem mem_block0 (t : Fin cfg0.N) (i : S50000x96.Idx) :
    i ∈ ((cfg0.win 2).blk t).view.set ↔ ∀ a : Fin 2, win0_2.index t a * S2000x96.size a ≤ (i a).val ∧ (i a).val < win0_2.index t a * S2000x96.size a + S2000x96.size a := by
  show i ∈ ((View.whole main_v0).slice (win0_2.rect t)).set ↔ _
  rw [View.set_slice_whole, Rect.mem_set_unit]
  exact Iff.rfl

/-- Every row-block index 0 … 24 of the result is the block index of some grid point of region 0. -/
theorem block_of_some_point0 : ∀ q0 : Fin 25, ∃ t : Fin cfg0.N, win0_2.index t = ![q0.val, 0] :=
  (by decide +kernel : ∀ q0 : Fin 25, ∃ t : Fin grid0.N, win0_2.index t = ![q0.val, 0])

/-- The 25 blocks of 2000 rows tile the 50000 rows: row i lies in the block whose index is i / 2000. -/
theorem covered0 (i : S50000x96.Idx) : ∃ t : Fin cfg0.N, (cfg0.win 2).flush t = true ∧ i ∈ ((cfg0.win 2).blk t).view.set := by
  have hi0 : (i 0).val < 50000 := (i 0).isLt
  have hi1 : (i 1).val < 96 := (i 1).isLt
  obtain ⟨t, ht⟩ := block_of_some_point0 ⟨(i 0).val / 2000, by omega⟩
  have q0 : win0_2.index t (0 : Fin 2) = (i 0).val / 2000 := congrFun ht 0
  have q1 : win0_2.index t (1 : Fin 2) = 0 := congrFun ht 1
  refine ⟨t, flush0_2 t, ?_⟩
  rw [mem_block0]
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 96 ≤ (i 1).val ∧ (i 1).val < win0_2.index t (1 : Fin 2) * 96 + 96; omega

/-- The result array of region 0 after its 25 write-backs is the whole product of the arrays it finds. -/
theorem product0 (V : (c : Dev nD) → (b : Ref sig .tc) → Buf (Elt Ideal) ((c : Thread nD τ).loc b)) (c : Dev nD)
    (x3 : (⟨Cert.ReferenceIdeal.S50000x96, .f32⟩ : BufTy).Contents (Elt Ideal)) (x4 : (⟨Cert.ReferenceIdeal.S96x96, .f32⟩ : BufTy).Contents (Elt Ideal))
    (h3 : V c main_arg3 = x3) (h4 : V c main_arg4 = x4) :
    (dat0 V c).arrAt 2 cfg0.N = Cert.ReferenceIdeal.Read.val_main_v0 (F := Ideal) x3 x4 :=
  (dat0 V c).arrAt_eq_of_cover 2 _ (fun t _ => flushed0 V c x3 x4 h3 h4 t) covered0

/-! ## Region 1: h · w2 -/

/-- The printed index maps of region 1 over its 25 grid points: the row-block index of the operand and of the result
    is the point, every other block index is 0. -/
theorem index_maps1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point t of region 1 writes back is block t — rows 2000·t … 2000·t + 1999 — of the whole product of the two
    arrays the region finds: row r of the operand's block is row 2000·t + r of the operand, and the weights' one block
    is the whole weight matrix. -/
theorem flushed1 (V : (c : Dev nD) → (b : Ref sig .tc) → Buf (Elt Ideal) ((c : Thread nD τ).loc b)) (c : Dev nD)
    (a : (⟨Cert.ReferenceIdeal.S50000x96, .f32⟩ : BufTy).Contents (Elt Ideal)) (w : (⟨Cert.ReferenceIdeal.S96x96, .f32⟩ : BufTy).Contents (Elt Ideal))
    (h14 : V c main_v14 = a) (h5 : V c main_arg5 = w) (t : Fin cfg1.N) :
    (dat1 V c).flushed 2 t = ((cfg1.win 2).blk t).view.read (Elt Ideal) (Cert.ReferenceIdeal.Read.val_main_v0 (F := Ideal) a w) := by
  show (cfg1.win 2).cut (grid1.coords t) ((dat1 V c).after 2 t) = _
  rw [after1_2]
  unfold out1_2
  rw [View.canon_unit_zero origin2]
  simp only [View.ld_unit_zero (S := S2000x96) origin2, View.ld_unit_zero (S := S96x96) origin2]
  funext j
  obtain ⟨r, q, rfl⟩ : ∃ (r : Fin 2000) (q : Fin 96), j = ix2 r q := ⟨j 0, j 1, eq_ix2 j⟩
  show k1_pay1 (iblk1 V c 0 t) (iblk1 V c 1 t) (ix2 r q)
    = Cert.ReferenceIdeal.Read.val_main_v0 (F := Ideal) a w (((cfg1.win 2).blk t).view.emb (ix2 r q))
  rw [Cert.ReferenceIdeal.Read.val_main_v0_apply]
  refine (block_product1 (iblk1 V c 0 t) (iblk1 V c 1 t) r q).trans ?_
  refine Finset.sum_congr rfl fun k _ => ?_
  obtain ⟨e0, e1, e2, e3, e4, e5⟩ := index_maps1 t
  have hl : iblk1 V c 0 t (ix2 r k)
      = a (Cert.ReferenceIdeal.Read.lidx_main_v0 (((cfg1.win 2).blk t).view.emb (ix2 r q)) k) := by
    show V c main_v14 (((cfg1.win 0).blk t).view.emb (ix2 r k)) = _
    rw [h14]
    refine congrArg _ (funext fun a => Fin.ext ?_)
    match a with
    | ⟨0, _⟩ => show win1_0.index t (0 : Fin 2) * 2000 + 1 * r.val = win1_2.index t (0 : Fin 2) * 2000 + 1 * r.val; omega
    | ⟨1, _⟩ => show win1_0.index t (1 : Fin 2) * 96 + 1 * k.val = k.val; omega
  have hr : iblk1 V c 1 t (ix2 k q)
      = w (Cert.ReferenceIdeal.Read.ridx_main_v0 (((cfg1.win 2).blk t).view.emb (ix2 r q)) k) := by
    show V c main_arg5 (((cfg1.win 1).blk t).view.emb (ix2 k q)) = _
    rw [h5]
    refine congrArg _ (funext fun a => Fin.ext ?_)
    match a with
    | ⟨0, _⟩ => show win1_1.index t (0 : Fin 2) * 96 + 1 * k.val = k.val; omega
    | ⟨1, _⟩ => show win1_1.index t (1 : Fin 2) * 96 + 1 * q.val = win1_2.index t (1 : Fin 2) * 96 + 1 * q.val; omega
  rw [hl, hr]

/-- An index of the result array lies in point t's block iff each coordinate lies in the block's range on its axis. -/
theorem mem_block1 (t : Fin cfg1.N) (i : S50000x96.Idx) :
    i ∈ ((cfg1.win 2).blk t).view.set ↔ ∀ a : Fin 2, win1_2.index t a * S2000x96.size a ≤ (i a).val ∧ (i a).val < win1_2.index t a * S2000x96.size a + S2000x96.size a := by
  show i ∈ ((View.whole main_v15).slice (win1_2.rect t)).set ↔ _
  rw [View.set_slice_whole, Rect.mem_set_unit]
  exact Iff.rfl

/-- Every row-block index 0 … 24 of the result is the block index of some grid point of region 1. -/
theorem block_of_some_point1 : ∀ q0 : Fin 25, ∃ t : Fin cfg1.N, win1_2.index t = ![q0.val, 0] :=
  (by decide +kernel : ∀ q0 : Fin 25, ∃ t : Fin grid1.N, win1_2.index t = ![q0.val, 0])

/-- The 25 blocks of 2000 rows tile the 50000 rows: row i lies in the block whose index is i / 2000. -/
theorem covered1 (i : S50000x96.Idx) : ∃ t : Fin cfg1.N, (cfg1.win 2).flush t = true ∧ i ∈ ((cfg1.win 2).blk t).view.set := by
  have hi0 : (i 0).val < 50000 := (i 0).isLt
  have hi1 : (i 1).val < 96 := (i 1).isLt
  obtain ⟨t, ht⟩ := block_of_some_point1 ⟨(i 0).val / 2000, by omega⟩
  have q0 : win1_2.index t (0 : Fin 2) = (i 0).val / 2000 := congrFun ht 0
  have q1 : win1_2.index t (1 : Fin 2) = 0 := congrFun ht 1
  refine ⟨t, flush1_2 t, ?_⟩
  rw [mem_block1]
  intro a
  match a with
  | ⟨0, _⟩ => show win1_2.index t (0 : Fin 2) * 2000 ≤ (i 0).val ∧ (i 0).val < win1_2.index t (0 : Fin 2) * 2000 + 2000; omega
  | ⟨1, _⟩ => show win1_2.index t (1 : Fin 2) * 96 ≤ (i 1).val ∧ (i 1).val < win1_2.index t (1 : Fin 2) * 96 + 96; omega

/-- The result array of region 1 after its 25 write-backs is the whole product of the arrays it finds. -/
theorem product1 (V : (c : Dev nD) → (b : Ref sig .tc) → Buf (Elt Ideal) ((c : Thread nD τ).loc b)) (c : Dev nD)
    (a : (⟨Cert.ReferenceIdeal.S50000x96, .f32⟩ : BufTy).Contents (Elt Ideal)) (w : (⟨Cert.ReferenceIdeal.S96x96, .f32⟩ : BufTy).Contents (Elt Ideal))
    (h14 : V c main_v14 = a) (h5 : V c main_arg5 = w) :
    (dat1 V c).arrAt 2 cfg1.N = Cert.ReferenceIdeal.Read.val_main_v0 (F := Ideal) a w :=
  (dat1 V c).arrAt_eq_of_cover 2 _ (fun t _ => flushed1 V c a w h14 h5 t) covered1

end Cert.KernelIdeal.Projection

end
-- ==== Proof.Aggregation.lean ====
/-
  One layer's aggregation over the graph's edges, as ONE function of the edge lists, the edge weights and the projected
  features: gather the source node's row for every edge, scale it by the edge's weight, add the scaled rows into the
  target nodes (starting from zero), and clamp below at zero. A negative source index is first moved up by the number of
  nodes. Both programs spell this stretch with the same host operations; it is never opened here. Stated twice, over
  each program's own shape records, with the proof that the two spellings are one function.
-/
import proofs.«108269_j85718957294354_1_alg».proof.Proof.Gen.KernelIdeal
import proofs.«108269_j85718957294354_1_alg».proof.Proof.Gen.ReferenceIdeal.Read

noncomputable section

namespace Cert.Aggregation

open Idealize.ShloMosaic Idealize.ShloMosaic.TcCoe

/-- The aggregation over the kernel program's records. -/
def overKernel (x0 x1 : (⟨Cert.KernelIdeal.S800000, .i32⟩ : BufTy).Contents (Elt Ideal)) (x2 : (⟨Cert.KernelIdeal.S800000, .f32⟩ : BufTy).Contents (Elt Ideal))
    (a : (⟨Cert.KernelIdeal.S50000x96, .f32⟩ : BufTy).Contents (Elt Ideal)) : (⟨Cert.KernelIdeal.S50000x96, .f32⟩ : BufTy).Contents (Elt Ideal) :=
  maximumf
    (Host.scatterAdd Cert.KernelIdeal.scatter_S50000x96_S800000x1_S800000x96_1_0_0_1
      (broadcastInDim Cert.KernelIdeal.S50000x96 ![] Cert.KernelIdeal.Facts₀.bcast_S_S50000x96 (constant (F := Ideal) Cert.KernelIdeal.S_ .f32 0x00000000#32))
      (broadcastInDim Cert.KernelIdeal.S800000x1 ![0] Cert.KernelIdeal.Facts₀.bcast_S800000_S800000x1_0 x0)
      (mulf
        (broadcastInDim Cert.KernelIdeal.S800000x96 ![0, 1] Cert.KernelIdeal.Facts₀.bcast_S800000x1_S800000x96_0_1
          (broadcastInDim Cert.KernelIdeal.S800000x1 ![0] Cert.KernelIdeal.Facts₀.bcast_S800000_S800000x1_0 x2))
        (Host.gather Cert.KernelIdeal.gather_S50000x96_S800000x1_S800000x96_1_0_n_n_0_1_196 a
          (broadcastInDim Cert.KernelIdeal.S800000x1 ![0] Cert.KernelIdeal.Facts₀.bcast_S800000_S800000x1_0
            (select
              (cmpi .slt x1 (broadcastInDim Cert.KernelIdeal.S800000 ![] Cert.KernelIdeal.Facts₀.bcast_S_S800000 (constantI Cert.KernelIdeal.S_ 32 0#32)))
              (addi x1 (broadcastInDim Cert.KernelIdeal.S800000 ![] Cert.KernelIdeal.Facts₀.bcast_S_S800000 (constantI Cert.KernelIdeal.S_ 32 50000#32)))
              x1)))))
    (broadcastInDim Cert.KernelIdeal.S50000x96 ![] Cert.KernelIdeal.Facts₀.bcast_S_S50000x96 (constant (F := Ideal) Cert.KernelIdeal.S_ .f32 0x00000000#32))

/-- The aggregation over the reference program's records. -/
def overReference (x0 x1 : (⟨Cert.ReferenceIdeal.S800000, .i32⟩ : BufTy).Contents (Elt Ideal)) (x2 : (⟨Cert.ReferenceIdeal.S800000, .f32⟩ : BufTy).Contents (Elt Ideal))
    (a : (⟨Cert.ReferenceIdeal.S50000x96, .f32⟩ : BufTy).Contents (Elt Ideal)) : (⟨Cert.ReferenceIdeal.S50000x96, .f32⟩ : BufTy).Contents (Elt Ideal) :=
  maximumf
    (Host.scatterAdd Cert.ReferenceIdeal.scatter_S50000x96_S800000x1_S800000x96_1_0_0_1
      (broadcastInDim Cert.ReferenceIdeal.S50000x96 ![] Cert.ReferenceIdeal.Facts₀.bcast_S_S50000x96 (constant (F := Ideal) Cert.ReferenceIdeal.S_ .f32 0x00000000#32))
      (broadcastInDim Cert.ReferenceIdeal.S800000x1 ![0] Cert.ReferenceIdeal.Facts₀.bcast_S800000_S800000x1_0 x0)
      (mulf
        (broadcastInDim Cert.ReferenceIdeal.S800000x96 ![0, 1] Cert.ReferenceIdeal.Facts₀.bcast_S800000x1_S800000x96_0_1
          (broadcastInDim Cert.ReferenceIdeal.S800000x1 ![0] Cert.ReferenceIdeal.Facts₀.bcast_S800000_S800000x1_0 x2))
        (Host.gather Cert.ReferenceIdeal.gather_S50000x96_S800000x1_S800000x96_1_0_n_n_0_1_196 a
          (broadcastInDim Cert.ReferenceIdeal.S800000x1 ![0] Cert.ReferenceIdeal.Facts₀.bcast_S800000_S800000x1_0
            (select
              (cmpi .slt x1 (broadcastInDim Cert.ReferenceIdeal.S800000 ![] Cert.ReferenceIdeal.Facts₀.bcast_S_S800000 (constantI Cert.ReferenceIdeal.S_ 32 0#32)))
              (addi x1 (broadcastInDim Cert.ReferenceIdeal.S800000 ![] Cert.ReferenceIdeal.Facts₀.bcast_S_S800000 (constantI Cert.ReferenceIdeal.S_ 32 50000#32)))
              x1)))))
    (broadcastInDim Cert.ReferenceIdeal.S50000x96 ![] Cert.ReferenceIdeal.Facts₀.bcast_S_S50000x96 (constant (F := Ideal) Cert.ReferenceIdeal.S_ .f32 0x00000000#32))

/-- The two programs' gather records are one record: the same dimension numbers over the same shapes. -/
theorem gather_records : Cert.KernelIdeal.gather_S50000x96_S800000x1_S800000x96_1_0_n_n_0_1_196 = Cert.ReferenceIdeal.gather_S50000x96_S800000x1_S800000x96_1_0_n_n_0_1_196 := rfl

/-- The two programs' scatter records are one record. -/
theorem scatter_records : Cert.KernelIdeal.scatter_S50000x96_S800000x1_S800000x96_1_0_0_1 = Cert.ReferenceIdeal.scatter_S50000x96_S800000x1_S800000x96_1_0_0_1 := rfl

/-- The two spellings are one function. -/
theorem overKernel_eq (x0 x1 : (⟨Cert.ReferenceIdeal.S800000, .i32⟩ : BufTy).Contents (Elt Ideal)) (x2 : (⟨Cert.ReferenceIdeal.S800000, .f32⟩ : BufTy).Contents (Elt Ideal))
    (a : (⟨Cert.ReferenceIdeal.S50000x96, .f32⟩ : BufTy).Contents (Elt Ideal)) :
    overKernel x0 x1 x2 a = overReference x0 x1 x2 a := by
  unfold overKernel overReference
  rw [gather_records, scatter_records]

/-- The reference's first aggregation stage is the aggregation of its first projection. -/
theorem first_stage (x0 x1 : (⟨Cert.ReferenceIdeal.S800000, .i32⟩ : BufTy).Contents (Elt Ideal)) (x2 : (⟨Cert.ReferenceIdeal.S800000, .f32⟩ : BufTy).Contents (Elt Ideal))
    (x3 : (⟨Cert.ReferenceIdeal.S50000x96, .f32⟩ : BufTy).Contents (Elt Ideal)) (x4 : (⟨Cert.ReferenceIdeal.S96x96, .f32⟩ : BufTy).Contents (Elt Ideal)) :
    Cert.ReferenceIdeal.Read.val_main_v14 (F := Ideal) x0 x1 x2 x3 x4 = overReference x0 x1 x2 (Cert.ReferenceIdeal.Read.val_main_v0 (F := Ideal) x3 x4) := by
  unfold Cert.ReferenceIdeal.Read.val_main_v14 Cert.ReferenceIdeal.Read.val_main_v13 Cert.ReferenceIdeal.Read.val_main_v12 Cert.ReferenceIdeal.Read.val_main_v11 Cert.ReferenceIdeal.Read.val_main_cst
    Cert.ReferenceIdeal.Read.val_main_v10 Cert.ReferenceIdeal.Read.val_main_v9 Cert.ReferenceIdeal.Read.val_main_v1 Cert.ReferenceIdeal.Read.val_main_v8 Cert.ReferenceIdeal.Read.val_main_v7 Cert.ReferenceIdeal.Read.val_main_v6
    Cert.ReferenceIdeal.Read.val_main_v5 Cert.ReferenceIdeal.Read.val_main_v4 Cert.ReferenceIdeal.Read.val_main_c_0 Cert.ReferenceIdeal.Read.val_main_v3 Cert.ReferenceIdeal.Read.val_main_v2 Cert.ReferenceIdeal.Read.val_main_c
    Cert.ReferenceIdeal.Read.val_main_call0_v0 Cert.ReferenceIdeal.Read.val_main_call0_cst overReference
  rfl

/-- The reference's second aggregation stage is the aggregation of its second projection. -/
theorem second_stage (x0 x1 : (⟨Cert.ReferenceIdeal.S800000, .i32⟩ : BufTy).Contents (Elt Ideal)) (x2 : (⟨Cert.ReferenceIdeal.S800000, .f32⟩ : BufTy).Contents (Elt Ideal))
    (x3 : (⟨Cert.ReferenceIdeal.S50000x96, .f32⟩ : BufTy).Contents (Elt Ideal)) (x4 x5 : (⟨Cert.ReferenceIdeal.S96x96, .f32⟩ : BufTy).Contents (Elt Ideal)) :
    Cert.ReferenceIdeal.Read.val_main_v29 (F := Ideal) x0 x1 x2 x3 x4 x5 = overReference x0 x1 x2 (Cert.ReferenceIdeal.Read.val_main_v15 (F := Ideal) x0 x1 x2 x3 x4 x5) := by
  unfold Cert.ReferenceIdeal.Read.val_main_v29 Cert.ReferenceIdeal.Read.val_main_v28 Cert.ReferenceIdeal.Read.val_main_v27 Cert.ReferenceIdeal.Read.val_main_v26 Cert.ReferenceIdeal.Read.val_main_cst_3
    Cert.ReferenceIdeal.Read.val_main_v25 Cert.ReferenceIdeal.Read.val_main_v24 Cert.ReferenceIdeal.Read.val_main_v16 Cert.ReferenceIdeal.Read.val_main_v23 Cert.ReferenceIdeal.Read.val_main_v22 Cert.ReferenceIdeal.Read.val_main_v21
    Cert.ReferenceIdeal.Read.val_main_v20 Cert.ReferenceIdeal.Read.val_main_v19 Cert.ReferenceIdeal.Read.val_main_c_2 Cert.ReferenceIdeal.Read.val_main_v18 Cert.ReferenceIdeal.Read.val_main_v17 Cert.ReferenceIdeal.Read.val_main_c_1
    Cert.ReferenceIdeal.Read.val_main_call1_v0 Cert.ReferenceIdeal.Read.val_main_call1_cst overReference
  rfl

end Cert.Aggregation

end
-- ==== Proof.Between.lean ====
/-
  The contents the second and third kernel regions are entered with.

  Between two regions @main runs a stretch of host operations on whole arrays. What a region finds in each of its
  operand arrays is therefore a function of the previous boundary's contents: the features are one layer's aggregation
  of the previous region's product, the weights and the bias are argument arrays no operation has written (the bias
  seen as one row of 40), and the edge lists and edge weights the aggregation reads are argument arrays too.
-/
import proofs.«108269_j85718957294354_1_alg».proof.Proof.Gen.KernelIdeal.Frame
import proofs.«108269_j85718957294354_1_alg».proof.Proof.Aggregation
import Idealize.ShloMosaic.Lib.StableHlo.Run
import Idealize.ShloMosaic.Lib.ValueLayout

set_option maxRecDepth 16384
set_option maxHeartbeats 2000000

noncomputable section

namespace Cert.KernelIdeal.Between

open Cert.KernelIdeal Cert.KernelIdeal.Gen
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg)

/-! ## After the first region -/

/-- The edge stretch after region 1: the scatter-add's result, from the previous boundary's contents. -/
theorem scattered2 (c : Dev nD) (r0 r1 : (⟨Cert.KernelIdeal.S800000, .i32⟩ : BufTy).Contents (Elt Ideal)) (v : (⟨Cert.KernelIdeal.S800000, .f32⟩ : BufTy).Contents (Elt Ideal)) (a : (⟨Cert.KernelIdeal.S50000x96, .f32⟩ : BufTy).Contents (Elt Ideal))
    (h0 : W1 m ρ c (Proc.devRef .tc main_arg0) = r0) (h1 : W1 m ρ c (Proc.devRef .tc main_arg1) = r1)
    (h2 : W1 m ρ c (Proc.devRef .tc main_arg2) = v) (ha : W1 m ρ c (Proc.devRef .tc main_v0) = a) :
    W2 m ρ c (Proc.devRef .tc main_v13) =
      Host.scatterAdd Cert.KernelIdeal.scatter_S50000x96_S800000x1_S800000x96_1_0_0_1
      (broadcastInDim Cert.KernelIdeal.S50000x96 ![] Cert.KernelIdeal.Facts₀.bcast_S_S50000x96 (constant (F := Ideal) Cert.KernelIdeal.S_ .f32 0x00000000#32))
      (broadcastInDim Cert.KernelIdeal.S800000x1 ![0] Cert.KernelIdeal.Facts₀.bcast_S800000_S800000x1_0 r0)
      (mulf
        (broadcastInDim Cert.KernelIdeal.S800000x96 ![0, 1] Cert.KernelIdeal.Facts₀.bcast_S800000x1_S800000x96_0_1
          (broadcastInDim Cert.KernelIdeal.S800000x1 ![0] Cert.KernelIdeal.Facts₀.bcast_S800000_S800000x1_0 v))
        (Host.gather Cert.KernelIdeal.gather_S50000x96_S800000x1_S800000x96_1_0_n_n_0_1_196 a
          (broadcastInDim Cert.KernelIdeal.S800000x1 ![0] Cert.KernelIdeal.Facts₀.bcast_S800000_S800000x1_0
            (select
              (cmpi .slt r1 (broadcastInDim Cert.KernelIdeal.S800000 ![] Cert.KernelIdeal.Facts₀.bcast_S_S800000 (constantI Cert.KernelIdeal.S_ 32 0#32)))
              (addi r1 (broadcastInDim Cert.KernelIdeal.S800000 ![] Cert.KernelIdeal.Facts₀.bcast_S_S800000 (constantI Cert.KernelIdeal.S_ 32 50000#32)))
              r1)))) := by
  dsimp only [W2, hostOps1]
  after_results_simp
  rw [h0, h1, h2, ha]

/-- The clamp at zero that follows, over whatever contents the scatter-add's buffer holds. -/
theorem clamped2 (P : Valuation τ sig (Elt Ideal)) (s : (⟨Cert.KernelIdeal.S50000x96, .f32⟩ : BufTy).Contents (Elt Ideal)) (hs : P (Proc.devRef .tc main_v13) = s) :
    StableHlo.after hostOps1_1 P (Proc.devRef .tc main_v14) =
      maximumf s (broadcastInDim S50000x96 ![] Facts₀.bcast_S_S50000x96 (constant (F := Ideal) S_ .f32 0x00000000#32)) := by
  dsimp only [hostOps1_1]
  after_results_simp
  rw [hs]
  rfl

/-- The second region's features: the aggregation of what the first region left in its result array. -/
theorem features1 (c : Dev nD) (r0 r1 : (⟨Cert.KernelIdeal.S800000, .i32⟩ : BufTy).Contents (Elt Ideal)) (v : (⟨Cert.KernelIdeal.S800000, .f32⟩ : BufTy).Contents (Elt Ideal)) (a : (⟨Cert.KernelIdeal.S50000x96, .f32⟩ : BufTy).Contents (Elt Ideal))
    (h0 : W1 m ρ c (Proc.devRef .tc main_arg0) = r0) (h1 : W1 m ρ c (Proc.devRef .tc main_arg1) = r1)
    (h2 : W1 m ρ c (Proc.devRef .tc main_arg2) = v) (ha : W1 m ρ c (Proc.devRef .tc main_v0) = a) :
    V3 m ρ c main_v14 = Cert.Aggregation.overKernel r0 r1 v a :=
  clamped2 (W2 m ρ c) _ (scattered2 m ρ c r0 r1 v a h0 h1 h2 ha)

/-- No operation of the stretch writes an argument array. -/
theorem kept1 (c : Dev nD) (b : Ref sig .tc) (hb : b = main_arg0 ∨ b = main_arg1 ∨ b = main_arg2 ∨ b = main_arg5 ∨ b = main_arg6 ∨ b = main_arg7) :
    V3 m ρ c b = W1 m ρ c (Proc.devRef .tc b) := by
  dsimp only [V3, W3, W2, hostOps1_1, hostOps1]
  rcases hb with rfl | rfl | rfl | rfl | rfl | rfl <;> after_results_simp

/-! ## After the second region -/

/-- The edge stretch after region 2: the scatter-add's result, from the previous boundary's contents. -/
theorem scattered3 (c : Dev nD) (r0 r1 : (⟨Cert.KernelIdeal.S800000, .i32⟩ : BufTy).Contents (Elt Ideal)) (v : (⟨Cert.KernelIdeal.S800000, .f32⟩ : BufTy).Contents (Elt Ideal)) (a : (⟨Cert.KernelIdeal.S50000x96, .f32⟩ : BufTy).Contents (Elt Ideal))
    (h0 : W4 m ρ c (Proc.devRef .tc main_arg0) = r0) (h1 : W4 m ρ c (Proc.devRef .tc main_arg1) = r1)
    (h2 : W4 m ρ c (Proc.devRef .tc main_arg2) = v) (ha : W4 m ρ c (Proc.devRef .tc main_v15) = a) :
    W5 m ρ c (Proc.devRef .tc main_v28) =
      Host.scatterAdd Cert.KernelIdeal.scatter_S50000x96_S800000x1_S800000x96_1_0_0_1
      (broadcastInDim Cert.KernelIdeal.S50000x96 ![] Cert.KernelIdeal.Facts₀.bcast_S_S50000x96 (constant (F := Ideal) Cert.KernelIdeal.S_ .f32 0x00000000#32))
      (broadcastInDim Cert.KernelIdeal.S800000x1 ![0] Cert.KernelIdeal.Facts₀.bcast_S800000_S800000x1_0 r0)
      (mulf
        (broadcastInDim Cert.KernelIdeal.S800000x96 ![0, 1] Cert.KernelIdeal.Facts₀.bcast_S800000x1_S800000x96_0_1
          (broadcastInDim Cert.KernelIdeal.S800000x1 ![0] Cert.KernelIdeal.Facts₀.bcast_S800000_S800000x1_0 v))
        (Host.gather Cert.KernelIdeal.gather_S50000x96_S800000x1_S800000x96_1_0_n_n_0_1_196 a
          (broadcastInDim Cert.KernelIdeal.S800000x1 ![0] Cert.KernelIdeal.Facts₀.bcast_S800000_S800000x1_0
            (select
              (cmpi .slt r1 (broadcastInDim Cert.KernelIdeal.S800000 ![] Cert.KernelIdeal.Facts₀.bcast_S_S800000 (constantI Cert.KernelIdeal.S_ 32 0#32)))
              (addi r1 (broadcastInDim Cert.KernelIdeal.S800000 ![] Cert.KernelIdeal.Facts₀.bcast_S_S800000 (constantI Cert.KernelIdeal.S_ 32 50000#32)))
              r1)))) := by
  dsimp only [W5, hostOps2]
  after_results_simp
  rw [h0, h1, h2, ha]

/-- The clamp at zero that follows, over whatever contents the scatter-add's buffer holds. -/
theorem clamped3 (P : Valuation τ sig (Elt Ideal)) (s : (⟨Cert.KernelIdeal.S50000x96, .f32⟩ : BufTy).Contents (Elt Ideal)) (hs : P (Proc.devRef .tc main_v28) = s) :
    StableHlo.after hostOps2_1 P (Proc.devRef .tc main_v29) =
      maximumf s (broadcastInDim S50000x96 ![] Facts₀.bcast_S_S50000x96 (constant (F := Ideal) S_ .f32 0x00000000#32)) := by
  dsimp only [hostOps2_1]
  after_results_simp
  rw [hs]
  rfl

/-- The reshape of the bias writes neither the features nor the weights. -/
theorem past_reshape (c : Dev nD) (b : Ref sig .tc) (hb : b = main_v29 ∨ b = main_arg6) :
    V7 m ρ c b = W6 m ρ c (Proc.devRef .tc b) := by
  dsimp only [V7, W7, hostOps2_2]
  rcases hb with rfl | rfl <;> after_results_simp

/-- The third region's features: the aggregation of what the second region left in its result array. -/
theorem features2 (c : Dev nD) (r0 r1 : (⟨Cert.KernelIdeal.S800000, .i32⟩ : BufTy).Contents (Elt Ideal)) (v : (⟨Cert.KernelIdeal.S800000, .f32⟩ : BufTy).Contents (Elt Ideal)) (a : (⟨Cert.KernelIdeal.S50000x96, .f32⟩ : BufTy).Contents (Elt Ideal))
    (h0 : W4 m ρ c (Proc.devRef .tc main_arg0) = r0) (h1 : W4 m ρ c (Proc.devRef .tc main_arg1) = r1)
    (h2 : W4 m ρ c (Proc.devRef .tc main_arg2) = v) (ha : W4 m ρ c (Proc.devRef .tc main_v15) = a) :
    V7 m ρ c main_v29 = Cert.Aggregation.overKernel r0 r1 v a :=
  (past_reshape m ρ c main_v29 (Or.inl rfl)).trans (clamped3 (W5 m ρ c) _ (scattered3 m ρ c r0 r1 v a h0 h1 h2 ha))

/-- The classifier's weights are as the second region left them. -/
theorem weights2 (c : Dev nD) : V7 m ρ c main_arg6 = W4 m ρ c (Proc.devRef .tc main_arg6) := by
  dsimp only [V7, W7, W6, W5, hostOps2_2, hostOps2_1, hostOps2]
  after_results_simp

/-- The bias row the third region reads: entry (0, j) is entry j of the bias vector. -/
theorem bias2 (c : Dev nD) (b : (⟨Cert.KernelIdeal.S40, .f32⟩ : BufTy).Contents (Elt Ideal)) (hb : W4 m ρ c (Proc.devRef .tc main_arg7) = b) (j : Fin 40) :
    V7 m ρ c main_v30 (ix2 (0 : Fin 1) j) = b (ix1 j) := by
  have e : V7 m ρ c main_v30 = shapeCast S1x40 b Facts₀.shapeCasts_S40_S1x40 := by
    dsimp only [V7, W7, W6, W5, hostOps2_2, hostOps2_1, hostOps2]
    after_results_simp
    rw [hb]
    rfl
  rw [e]
  exact shapeCast_a_1a_apply b _ (0 : Fin 1) j

end Cert.KernelIdeal.Between

end
-- ==== Proof.KernelValue.lean ====
/-
  The idealized kernel's two results as functions of the argument arrays.

  Boundary by boundary: the first region leaves x · w1 in its result array; the stretch after it aggregates that over
  the graph's edges; the second region multiplies the aggregate by w2; the next stretch aggregates again; the third
  region normalizes each row to unit length (result 0) and applies the classifier and a softmax to the normalized rows
  (result 1). Each step is stated with the SAME function of the argument arrays that the reference program's stages
  are, so the last boundary's contents of the two result buffers are the reference's two results.
-/
import proofs.«108269_j85718957294354_1_alg».proof.Proof.LastBoundary
import proofs.«108269_j85718957294354_1_alg».proof.Proof.Projection
import proofs.«108269_j85718957294354_1_alg».proof.Proof.Between

set_option maxRecDepth 16384

noncomputable section

namespace Cert.KernelIdeal.Values

open Cert.KernelIdeal Cert.KernelIdeal.Gen
open Idealize.ShloMosaic Idealize.ShloMosaic.TcCoe Idealize.ShloMosaic.ValueIdx Idealize.SL.Sem

variable (m : (ℓ : Loc nD τ sig) → Buf (Elt Ideal) ℓ) (ρ : Dev nD → PrngReg)

/-! ## The argument arrays at launch -/
abbrev arg0 (c : Dev nD) : (⟨Cert.ReferenceIdeal.S800000, .i32⟩ : BufTy).Contents (Elt Ideal) := m ((c.tc : Thread nD τ).loc main_arg0)
abbrev arg1 (c : Dev nD) : (⟨Cert.ReferenceIdeal.S800000, .i32⟩ : BufTy).Contents (Elt Ideal) := m ((c.tc : Thread nD τ).loc main_arg1)
abbrev arg2 (c : Dev nD) : (⟨Cert.ReferenceIdeal.S800000, .f32⟩ : BufTy).Contents (Elt Ideal) := m ((c.tc : Thread nD τ).loc main_arg2)
abbrev arg3 (c : Dev nD) : (⟨Cert.ReferenceIdeal.S50000x96, .f32⟩ : BufTy).Contents (Elt Ideal) := m ((c.tc : Thread nD τ).loc main_arg3)
abbrev arg4 (c : Dev nD) : (⟨Cert.ReferenceIdeal.S96x96, .f32⟩ : BufTy).Contents (Elt Ideal) := m ((c.tc : Thread nD τ).loc main_arg4)
abbrev arg5 (c : Dev nD) : (⟨Cert.ReferenceIdeal.S96x96, .f32⟩ : BufTy).Contents (Elt Ideal) := m ((c.tc : Thread nD τ).loc main_arg5)
abbrev arg6 (c : Dev nD) : (⟨Cert.ReferenceIdeal.S96x40, .f32⟩ : BufTy).Contents (Elt Ideal) := m ((c.tc : Thread nD τ).loc main_arg6)
abbrev arg7 (c : Dev nD) : (⟨Cert.ReferenceIdeal.S40, .f32⟩ : BufTy).Contents (Elt Ideal) := m ((c.tc : Thread nD τ).loc main_arg7)

/-! ## Region 0 and the stretch after it -/

/-- An argument array is untouched by the first region. -/
theorem kept_by_region0 (c : Dev nD) (b : Ref sig .tc) (hb : ∀ w, Pipeline.arrRef spec0 w ≠ b) :
    W1 m ρ c (Proc.devRef .tc b) = m ((c.tc : Thread nD τ).loc b) := W1_of_ne m ρ c b hb

/-- The first region leaves x · w1. -/
theorem first_product (c : Dev nD) : W1 m ρ c (Proc.devRef .tc main_v0) = Cert.ReferenceIdeal.Read.val_main_v0 (F := Ideal) (arg3 m c) (arg4 m c) :=
  (W1_arr m ρ c 2).trans (Cert.KernelIdeal.Projection.product0 (V0 m ρ) c (arg3 m c) (arg4 m c) rfl rfl)

/-- The second region is entered with the first aggregate as its features … -/
theorem second_features (c : Dev nD) : V3 m ρ c main_v14 = Cert.ReferenceIdeal.Read.val_main_v14 (F := Ideal) (arg0 m c) (arg1 m c) (arg2 m c) (arg3 m c) (arg4 m c) :=
  (Cert.KernelIdeal.Between.features1 m ρ c (arg0 m c) (arg1 m c) (arg2 m c) _
      (kept_by_region0 m ρ c main_arg0 (by decide)) (kept_by_region0 m ρ c main_arg1 (by decide)) (kept_by_region0 m ρ c main_arg2 (by decide))
      (first_product m ρ c)).trans
    ((Cert.Aggregation.overKernel_eq _ _ _ _).trans (Cert.Aggregation.first_stage _ _ _ _ _).symm)

/-- … and w2 as its weights. -/
theorem second_weights (c : Dev nD) : V3 m ρ c main_arg5 = (arg5 m c) :=
  (Cert.KernelIdeal.Between.kept1 m ρ c main_arg5 (Or.inr (Or.inr (Or.inr (Or.inl rfl))))).trans (kept_by_region0 m ρ c main_arg5 (by decide))

/-! ## Region 1 and the stretch after it -/

/-- The second region leaves (first aggregate) · w2. -/
theorem second_product (c : Dev nD) : W4 m ρ c (Proc.devRef .tc main_v15) = Cert.ReferenceIdeal.Read.val_main_v15 (F := Ideal) (arg0 m c) (arg1 m c) (arg2 m c) (arg3 m c) (arg4 m c) (arg5 m c) :=
  (W4_arr m ρ c 2).trans
    ((Cert.KernelIdeal.Projection.product1 (V3 m ρ) c _ _ (second_features m ρ c) (second_weights m ρ c)).trans
      (by unfold Cert.ReferenceIdeal.Read.val_main_v15 Cert.ReferenceIdeal.Read.val_main_v0; rfl))

/-- An argument array is untouched up to the second region's exit. -/
theorem kept_to_region1_exit (c : Dev nD) (b : Ref sig .tc) (h0 : ∀ w, Pipeline.arrRef spec0 w ≠ b) (h1 : ∀ w, Pipeline.arrRef spec1 w ≠ b)
    (hb : b = main_arg0 ∨ b = main_arg1 ∨ b = main_arg2 ∨ b = main_arg5 ∨ b = main_arg6 ∨ b = main_arg7) :
    W4 m ρ c (Proc.devRef .tc b) = m ((c.tc : Thread nD τ).loc b) :=
  (W4_of_ne m ρ c b h1).trans ((Cert.KernelIdeal.Between.kept1 m ρ c b hb).trans (kept_by_region0 m ρ c b h0))

/-- The third region is entered with the second aggregate as its features … -/
theorem third_features (c : Dev nD) : V7 m ρ c main_v29 = Cert.ReferenceIdeal.Read.val_main_v29 (F := Ideal) (arg0 m c) (arg1 m c) (arg2 m c) (arg3 m c) (arg4 m c) (arg5 m c) :=
  (Cert.KernelIdeal.Between.features2 m ρ c (arg0 m c) (arg1 m c) (arg2 m c) _
      (kept_to_region1_exit m ρ c main_arg0 (by decide) (by decide) (Or.inl rfl))
      (kept_to_region1_exit m ρ c main_arg1 (by decide) (by decide) (Or.inr (Or.inl rfl)))
      (kept_to_region1_exit m ρ c main_arg2 (by decide) (by decide) (Or.inr (Or.inr (Or.inl rfl))))
      (second_product m ρ c)).trans
    ((Cert.Aggregation.overKernel_eq _ _ _ _).trans (Cert.Aggregation.second_stage _ _ _ _ _ _).symm)

/-- … the classifier's weights … -/
theorem third_weights (c : Dev nD) : V7 m ρ c main_arg6 = (arg6 m c) :=
  (Cert.KernelIdeal.Between.weights2 m ρ c).trans (kept_to_region1_exit m ρ c main_arg6 (by decide) (by decide) (Or.inr (Or.inr (Or.inr (Or.inr (Or.inl rfl))))))

/-- … and the bias as one row of 40. -/
theorem third_bias (c : Dev nD) (j : Fin 40) : V7 m ρ c main_v30 (ix2 (0 : Fin 1) j) = (arg7 m c) (ix1 j) :=
  Cert.KernelIdeal.Between.bias2 m ρ c (arg7 m c) (kept_to_region1_exit m ρ c main_arg7 (by decide) (by decide) (Or.inr (Or.inr (Or.inr (Or.inr (Or.inr rfl)))))) j

/-! ## Region 2: the two results -/

/-- What the third region's two result arrays hold, given what it computes from the arrays it finds (the two
    hypotheses: its row normalization and its classifier with softmax, each as the reference's stage). -/
theorem results
    (normalized : ∀ (V : (c : Dev nD) → (b : Ref sig .tc) → Buf (Elt Ideal) ((c : Thread nD τ).loc b)) (c : Dev nD) (x0 x1 : (⟨Cert.ReferenceIdeal.S800000, .i32⟩ : BufTy).Contents (Elt Ideal)) (x2 : (⟨Cert.ReferenceIdeal.S800000, .f32⟩ : BufTy).Contents (Elt Ideal)) (x3 : (⟨Cert.ReferenceIdeal.S50000x96, .f32⟩ : BufTy).Contents (Elt Ideal)) (x4 x5 : (⟨Cert.ReferenceIdeal.S96x96, .f32⟩ : BufTy).Contents (Elt Ideal)),
      V c main_v29 = Cert.ReferenceIdeal.Read.val_main_v29 (F := Ideal) x0 x1 x2 x3 x4 x5 →
      (dat2 V c).arrAt 3 cfg2.N = Cert.ReferenceIdeal.Read.val_main_v37 (F := Ideal) x0 x1 x2 x3 x4 x5)
    (classified : ∀ (V : (c : Dev nD) → (b : Ref sig .tc) → Buf (Elt Ideal) ((c : Thread nD τ).loc b)) (c : Dev nD) (x0 x1 : (⟨Cert.ReferenceIdeal.S800000, .i32⟩ : BufTy).Contents (Elt Ideal)) (x2 : (⟨Cert.ReferenceIdeal.S800000, .f32⟩ : BufTy).Contents (Elt Ideal)) (x3 : (⟨Cert.ReferenceIdeal.S50000x96, .f32⟩ : BufTy).Contents (Elt Ideal)) (x4 x5 : (⟨Cert.ReferenceIdeal.S96x96, .f32⟩ : BufTy).Contents (Elt Ideal))
      (x6 : (⟨Cert.ReferenceIdeal.S96x40, .f32⟩ : BufTy).Contents (Elt Ideal)) (x7 : (⟨Cert.ReferenceIdeal.S40, .f32⟩ : BufTy).Contents (Elt Ideal)),
      V c main_v29 = Cert.ReferenceIdeal.Read.val_main_v29 (F := Ideal) x0 x1 x2 x3 x4 x5 → V c main_arg6 = x6 →
      (∀ j : Fin 40, V c main_v30 (ix2 (0 : Fin 1) j) = x7 (ix1 j)) →
      (dat2 V c).arrAt 4 cfg2.N = Cert.ReferenceIdeal.Read.val_main_v52 (F := Ideal) x0 x1 x2 x3 x4 x5 x6 x7)
    (c : Dev nD) :
    W8 m ρ c (Proc.devRef .tc main_v31_0) = Cert.ReferenceIdeal.Read.val_main_v37 (F := Ideal) (arg0 m c) (arg1 m c) (arg2 m c) (arg3 m c) (arg4 m c) (arg5 m c)
    ∧ W8 m ρ c (Proc.devRef .tc main_v31_1) = Cert.ReferenceIdeal.Read.val_main_v52 (F := Ideal) (arg0 m c) (arg1 m c) (arg2 m c) (arg3 m c) (arg4 m c) (arg5 m c) (arg6 m c) (arg7 m c) :=
  ⟨(W8_arr m ρ c 3).trans (normalized (V7 m ρ) c _ _ _ _ _ _ (third_features m ρ c)),
   (W8_arr m ρ c 4).trans (classified (V7 m ρ) c _ _ _ _ _ _ _ _ (third_features m ρ c) (third_weights m ρ c) (third_bias m ρ c))⟩

end Cert.KernelIdeal.Values

end
-- ==== Proof.Region2Spec.lean ====
/-
  Row-wise normalisation and classification, as functions of whole arrays, index by index, at the ideal values.

  An array of `n` rows of 96 lanes is scaled row by row to unit Euclidean length: each entry is multiplied by the
  reciprocal square root of its row's sum of squares, that sum floored at a small positive constant. The scaled rows
  are then multiplied by a 96 × 40 matrix, a bias of 40 entries is added, and each row of 40 scores is turned into
  probabilities by the softmax, spelt with the row's maximum subtracted before the exponential.

  Both functions are ROW-LOCAL: row `r` of the result depends on row `r` of the argument only. So a block of
  consecutive rows of the result is the same function of the matching block of rows of the argument; that is all the
  arithmetic this certificate needs, and it uses no law of the extended reals.
-/
import Idealize.ShloMosaic.Lib.ValueIdx
import Idealize.ShloMosaic.PureOps.Ideal.Laws

noncomputable section

namespace Cert.KernelIdeal.Region2

open Idealize.ShloMosaic Idealize.ShloMosaic.ValueIdx
open scoped BigOperators

/-- The floor under a row's sum of squares (the f32 word of about 1e-12). -/
abbrev eps : EReal := Ideal.ofBits .f32 0x2B8CBCCC#32

/-- The value a row maximum starts from (the f32 word of −∞). -/
abbrev negInf : EReal := Ideal.ofBits .f32 0xFF800000#32

/-- The scale of row `r`: the reciprocal square root of the row's sum of squares, floored at `eps`. -/
def rowScale {n : Nat} (h : (⟨2, ![n, 96]⟩ : Shape).Idx → EReal) (r : Fin n) : EReal :=
  Ideal.rsqrt (max (∑ k : Fin 96, h (ix2 r k) * h (ix2 r k)) eps)

/-- Every row scaled to unit length: entry (r, k) times row `r`'s scale. -/
def l2norm {n : Nat} (h : (⟨2, ![n, 96]⟩ : Shape).Idx → EReal) : (⟨2, ![n, 96]⟩ : Shape).Idx → EReal :=
  fun i => h i * rowScale h (i 0 : Fin n)

theorem l2norm_apply {n : Nat} (h : (⟨2, ![n, 96]⟩ : Shape).Idx → EReal) (r : Fin n) (k : Fin 96) :
    l2norm h (ix2 r k) = h (ix2 r k) * rowScale h r := rfl

/-- The host's spelling of one normalised entry — the sum of squares started from the zero word, the operations the
    host's own — is the entry times its row's scale: adding to zero is the only arithmetic. -/
theorem l2norm_host_form {n : Nat} (h : (⟨2, ![n, 96]⟩ : Shape).Idx → EReal) (r : Fin n) (k : Fin 96) :
    FloatOps.mulf (F := Ideal) (φ := .f32) (h (ix2 r k))
        (FloatOps.hostUnary (F := Ideal) (φ := .f32) .rsqrt
          (FloatOps.maximumf (F := Ideal) (φ := .f32)
            (FloatOps.ofBits (F := Ideal) .f32 0x00000000#32 + ∑ k' : Fin 96, mulf (F := Ideal) (φ := .f32) h h (ix2 r k'))
            (FloatOps.ofBits (F := Ideal) .f32 0x2B8CBCCC#32)))
      = l2norm h (ix2 r k) := by
  rw [l2norm_apply]
  unfold rowScale
  refine congrArg (h (ix2 r k) * ·) ?_
  refine congrArg (fun s => Ideal.rsqrt (max s eps)) ?_
  rw [Ideal.ofBits_def, Ideal.ofBits_zero_f32, zero_add]
  rfl

/-- The score of row `r` for class `q`: the row against column `q` of the weights, plus the bias. -/
def score {n : Nat} (o : (⟨2, ![n, 96]⟩ : Shape).Idx → EReal) (w : (⟨2, ![96, 40]⟩ : Shape).Idx → EReal) (b : Fin 40 → EReal)
    (r : Fin n) (q : Fin 40) : EReal :=
  (∑ k : Fin 96, o (ix2 r k) * w (ix2 k q)) + b q

/-- The largest score of row `r`, as both programs take it: a maximum folded from −∞ over the 40 classes, and
    once more against −∞. -/
def rowMax {n : Nat} (o : (⟨2, ![n, 96]⟩ : Shape).Idx → EReal) (w : (⟨2, ![96, 40]⟩ : Shape).Idx → EReal) (b : Fin 40 → EReal)
    (r : Fin n) : EReal :=
  max negInf ((Finset.univ : Finset (Fin 40)).fold max negInf (fun q => score o w b r q))

/-- The exponential of a score less its row's maximum. -/
def expScore {n : Nat} (o : (⟨2, ![n, 96]⟩ : Shape).Idx → EReal) (w : (⟨2, ![96, 40]⟩ : Shape).Idx → EReal) (b : Fin 40 → EReal)
    (r : Fin n) (q : Fin 40) : EReal :=
  Ideal.exp (score o w b r q - rowMax o w b r)

/-- The softmax of each row's scores. -/
def classify {n : Nat} (o : (⟨2, ![n, 96]⟩ : Shape).Idx → EReal) (w : (⟨2, ![96, 40]⟩ : Shape).Idx → EReal) (b : Fin 40 → EReal) :
    (⟨2, ![n, 40]⟩ : Shape).Idx → EReal :=
  fun i => Ideal.div (expScore o w b (i 0 : Fin n) (i 1 : Fin 40)) (∑ q : Fin 40, expScore o w b (i 0 : Fin n) q)

theorem classify_apply {n : Nat} (o : (⟨2, ![n, 96]⟩ : Shape).Idx → EReal) (w : (⟨2, ![96, 40]⟩ : Shape).Idx → EReal) (b : Fin 40 → EReal)
    (r : Fin n) (q : Fin 40) :
    classify o w b (ix2 r q) = Ideal.div (expScore o w b r q) (∑ q' : Fin 40, expScore o w b r q') := rfl

/-! ## Row-locality: a block of rows of the result is the function of the block of rows -/

variable {m n : Nat}

/-- If row `r` of `x` is row `ρ r` of `h`, the two rows have the same scale. -/
theorem rowScale_block (x : (⟨2, ![m, 96]⟩ : Shape).Idx → EReal) (h : (⟨2, ![n, 96]⟩ : Shape).Idx → EReal) (ρ : Fin m → Fin n)
    (hx : ∀ r k, x (ix2 r k) = h (ix2 (ρ r) k)) (r : Fin m) : rowScale x r = rowScale h (ρ r) := by
  unfold rowScale
  simp only [hx]

/-- If every row `r` of `x` is row `ρ r` of `h`, the same holds of the normalised arrays. -/
theorem l2norm_block (x : (⟨2, ![m, 96]⟩ : Shape).Idx → EReal) (h : (⟨2, ![n, 96]⟩ : Shape).Idx → EReal) (ρ : Fin m → Fin n)
    (hx : ∀ r k, x (ix2 r k) = h (ix2 (ρ r) k)) (r : Fin m) (k : Fin 96) :
    l2norm x (ix2 r k) = l2norm h (ix2 (ρ r) k) := by
  rw [l2norm_apply, l2norm_apply, hx, rowScale_block x h ρ hx]

/-- If every row `r` of `o` is row `ρ r` of `o'`, and the weights and the bias agree entry by entry, row `r` of
    the probabilities of `o` is row `ρ r` of those of `o'`. -/
theorem classify_block (o : (⟨2, ![m, 96]⟩ : Shape).Idx → EReal) (o' : (⟨2, ![n, 96]⟩ : Shape).Idx → EReal) (ρ : Fin m → Fin n)
    (w w' : (⟨2, ![96, 40]⟩ : Shape).Idx → EReal) (b b' : Fin 40 → EReal)
    (ho : ∀ r k, o (ix2 r k) = o' (ix2 (ρ r) k)) (hw : ∀ k q, w (ix2 k q) = w' (ix2 k q)) (hb : ∀ q, b q = b' q)
    (r : Fin m) (q : Fin 40) :
    classify o w b (ix2 r q) = classify o' w' b' (ix2 (ρ r) q) := by
  have hs : ∀ q', score o w b r q' = score o' w' b' (ρ r) q' := fun q' => by
    unfold score
    simp only [ho, hw, hb]
  have hm : rowMax o w b r = rowMax o' w' b' (ρ r) := by
    unfold rowMax
    simp only [hs]
  have he : ∀ q', expScore o w b r q' = expScore o' w' b' (ρ r) q' := fun q' => by
    unfold expScore
    rw [hs, hm]
  rw [classify_apply, classify_apply]
  simp only [he]

end Cert.KernelIdeal.Region2

end
-- ==== Proof.Region2Blocks.lean ====
/-
  The third kernel's blocks, as rows of the whole arrays. The grid has 25 points; point `t` loads rows
  `2000 t … 2000 t + 1999` of the 50000 × 96 input, the whole 96 × 40 weights and the whole 1 × 40 bias, and writes
  back the same 2000 rows of each of its two results. Here: where the printed index maps put each window at a point,
  each loaded block read as entries of its array, where an entry of a result's block sits in the result, and the fact
  that the 25 blocks cover all 50000 rows (row `R` belongs to point `R / 2000`).
-/
import proofs.«108269_j85718957294354_1_alg».proof.Proof.Gen.KernelIdeal.Frame
import Idealize.ShloMosaic.Lib.Pipeline.Value
import Idealize.ShloMosaic.Lib.ValueIdx

noncomputable section

namespace Cert.KernelIdeal.Region2

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps, decided over the 25 grid points: at point `t` the window of the row blocks (the input
    `h`, and both results) sits at block row `t`, block column 0; the weights' and the bias's windows sit at block
    (0, 0), the whole array. -/
theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0
    ∧ win2_4.index t (0 : Fin 2) = t.val ∧ win2_4.index t (1 : Fin 2) = 0 :=
  (by decide +kernel : ∀ t : Fin grid2.N, _)

/-- Row `r` of block `t` is a row of the 50000-row array. -/
theorem rows_lt (t : Fin cfg2.N) (r : Fin 2000) : 2000 * t.val + r.val < 50000 := by
  have hN : grid2.N = 25 := N_2
  have ht : t.val < grid2.N := t.isLt
  have hr := r.isLt
  omega

/-- Row `r` of block `t`, as a row of the whole array: row `2000 t + r`. -/
abbrev rowOf (t : Fin cfg2.N) (r : Fin 2000) : Fin 50000 := ⟨2000 * t.val + r.val, rows_lt t r⟩

/-- Entry (r, k) of the block of `h` that point `t` loads is entry (2000 t + r, k) of `h`. -/
theorem iblk0_apply (c : Dev nD) (t : Fin cfg2.N) (r : Fin 2000) (k : Fin 96) :
    (iblk2 V c 0 t : Vec Ideal S2000x96 .f32) (ix2 r k)
      = (V c main_v29 : S50000x96.Idx → EReal) (ix2 (rowOf t r) k) := by
  obtain ⟨e0, e1, -⟩ := idx_facts t
  unfold iblk2
  rw [View.read_apply]
  show V c main_v29 _ = V c main_v29 _
  refine congrArg (V c main_v29) ?_
  funext a
  apply Fin.ext
  match a with
  | ⟨0, _⟩ => show win2_0.index t (0 : Fin 2) * 2000 + 1 * r.val = 2000 * t.val + r.val; rw [e0]; omega
  | ⟨1, _⟩ => show win2_0.index t (1 : Fin 2) * 96 + 1 * k.val = k.val; rw [e1]; omega

/-- The block of the weights that any point loads is the whole 96 × 40 array. -/
theorem iblk1_apply (c : Dev nD) (t : Fin cfg2.N) (k : Fin 96) (q : Fin 40) :
    (iblk2 V c 1 t : Vec Ideal S96x40 .f32) (ix2 k q) = (V c main_arg6 : S96x40.Idx → EReal) (ix2 k q) := by
  obtain ⟨-, -, e0, e1, -⟩ := idx_facts t
  unfold iblk2
  rw [View.read_apply]
  show V c main_arg6 _ = V c main_arg6 _
  refine congrArg (V c main_arg6) ?_
  funext a
  apply Fin.ext
  match a with
  | ⟨0, _⟩ => show win2_1.index t (0 : Fin 2) * 96 + 1 * k.val = k.val; rw [e0]; omega
  | ⟨1, _⟩ => show win2_1.index t (1 : Fin 2) * 40 + 1 * q.val = q.val; rw [e1]; omega

/-- The block of the bias that any point loads is the whole 1 × 40 array. -/
theorem iblk2_apply (c : Dev nD) (t : Fin cfg2.N) (u : Fin 1) (q : Fin 40) :
    (iblk2 V c 2 t : Vec Ideal S1x40 .f32) (ix2 u q) = (V c main_v30 : S1x40.Idx → EReal) (ix2 u q) := by
  obtain ⟨-, -, -, -, e0, e1, -⟩ := idx_facts t
  unfold iblk2
  rw [View.read_apply]
  show V c main_v30 _ = V c main_v30 _
  refine congrArg (V c main_v30) ?_
  funext a
  apply Fin.ext
  match a with
  | ⟨0, _⟩ => show win2_2.index t (0 : Fin 2) * 1 + 1 * u.val = u.val; rw [e0]; omega
  | ⟨1, _⟩ => show win2_2.index t (1 : Fin 2) * 40 + 1 * q.val = q.val; rw [e1]; omega

/-! ## The blocks of the two results -/

/-- Entry (r, k) of block `t` of the first result sits at (2000 t + r, k) of the array. -/
theorem emb3 (t : Fin cfg2.N) (r : Fin 2000) (k : Fin 96) :
    ((cfg2.win 3).blk t).view.emb (ix2 r k) = (ix2 (rowOf t r) k : S50000x96.Idx) := by
  obtain ⟨-, -, -, -, -, -, e0, e1, -⟩ := idx_facts t
  funext a
  apply Fin.ext
  match a with
  | ⟨0, _⟩ => show win2_3.index t (0 : Fin 2) * 2000 + 1 * r.val = 2000 * t.val + r.val; rw [e0]; omega
  | ⟨1, _⟩ => show win2_3.index t (1 : Fin 2) * 96 + 1 * k.val = k.val; rw [e1]; omega

/-- Entry (r, q) of block `t` of the second result sits at (2000 t + r, q) of the array. -/
theorem emb4 (t : Fin cfg2.N) (r : Fin 2000) (q : Fin 40) :
    ((cfg2.win 4).blk t).view.emb (ix2 r q) = (ix2 (rowOf t r) q : S50000x40.Idx) := by
  obtain ⟨-, -, -, -, -, -, -, -, e0, e1⟩ := idx_facts t
  funext a
  apply Fin.ext
  match a with
  | ⟨0, _⟩ => show win2_4.index t (0 : Fin 2) * 2000 + 1 * r.val = 2000 * t.val + r.val; rw [e0]; omega
  | ⟨1, _⟩ => show win2_4.index t (1 : Fin 2) * 40 + 1 * q.val = q.val; rw [e1]; omega

/-- An index of the first result is in point `t`'s block iff each coordinate is in the block's range on its axis. -/
theorem mem_blk3 (t : Fin cfg2.N) (i : S50000x96.Idx) :
    i ∈ ((cfg2.win 3).blk t).view.set ↔ ∀ a : Fin 2, win2_3.index t a * S2000x96.size a ≤ (i a).val ∧ (i a).val < win2_3.index t a * S2000x96.size a + S2000x96.size a := by
  show i ∈ ((View.whole main_v31_0).slice (win2_3.rect t)).set ↔ _
  rw [View.set_slice_whole, Rect.mem_set_unit]
  exact Iff.rfl

/-- The same for the second result. -/
theorem mem_blk4 (t : Fin cfg2.N) (i : S50000x40.Idx) :
    i ∈ ((cfg2.win 4).blk t).view.set ↔ ∀ a : Fin 2, win2_4.index t a * S2000x40.size a ≤ (i a).val ∧ (i a).val < win2_4.index t a * S2000x40.size a + S2000x40.size a := by
  show i ∈ ((View.whole main_v31_1).slice (win2_4.rect t)).set ↔ _
  rw [View.set_slice_whole, Rect.mem_set_unit]
  exact Iff.rfl

/-- The point whose block holds row `R`: `R / 2000`. -/
abbrev pointOf (R : Nat) (hR : R < 50000) : Fin cfg2.N :=
  ⟨R / 2000, by have hN : grid2.N = 25 := N_2; show R / 2000 < grid2.N; omega⟩

/-- The 25 blocks of 2000 rows cover the first result: row `R` is in the block of point `R / 2000`, which is written back. -/
theorem cover3 (i : S50000x96.Idx) :
    ∃ t : Fin cfg2.N, (cfg2.win 3).flush t = true ∧ i ∈ ((cfg2.win 3).blk t).view.set := by
  have hi0 : (i 0).val < 50000 := (i 0).isLt
  have hi1 : (i 1).val < 96 := (i 1).isLt
  obtain ⟨-, -, -, -, -, -, e0, e1, -⟩ := idx_facts (pointOf (i 0).val hi0)
  refine ⟨pointOf (i 0).val hi0, flush2_3 _, ?_⟩
  rw [mem_blk3]
  intro a
  match a with
  | ⟨0, _⟩ =>
    show win2_3.index (pointOf (i 0).val hi0) (0 : Fin 2) * 2000 ≤ (i 0).val ∧ (i 0).val < win2_3.index (pointOf (i 0).val hi0) (0 : Fin 2) * 2000 + 2000
    rw [e0]; show (i 0).val / 2000 * 2000 ≤ (i 0).val ∧ (i 0).val < (i 0).val / 2000 * 2000 + 2000; omega
  | ⟨1, _⟩ =>
    show win2_3.index (pointOf (i 0).val hi0) (1 : Fin 2) * 96 ≤ (i 1).val ∧ (i 1).val < win2_3.index (pointOf (i 0).val hi0) (1 : Fin 2) * 96 + 96
    rw [e1]; omega

/-- The same blocks of rows cover the second result. -/
theorem cover4 (i : S50000x40.Idx) :
    ∃ t : Fin cfg2.N, (cfg2.win 4).flush t = true ∧ i ∈ ((cfg2.win 4).blk t).view.set := by
  have hi0 : (i 0).val < 50000 := (i 0).isLt
  have hi1 : (i 1).val < 40 := (i 1).isLt
  obtain ⟨-, -, -, -, -, -, -, -, e0, e1⟩ := idx_facts (pointOf (i 0).val hi0)
  refine ⟨pointOf (i 0).val hi0, flush2_4 _, ?_⟩
  rw [mem_blk4]
  intro a
  match a with
  | ⟨0, _⟩ =>
    show win2_4.index (pointOf (i 0).val hi0) (0 : Fin 2) * 2000 ≤ (i 0).val ∧ (i 0).val < win2_4.index (pointOf (i 0).val hi0) (0 : Fin 2) * 2000 + 2000
    rw [e0]; show (i 0).val / 2000 * 2000 ≤ (i 0).val ∧ (i 0).val < (i 0).val / 2000 * 2000 + 2000; omega
  | ⟨1, _⟩ =>
    show win2_4.index (pointOf (i 0).val hi0) (1 : Fin 2) * 40 ≤ (i 1).val ∧ (i 1).val < win2_4.index (pointOf (i 0).val hi0) (1 : Fin 2) * 40 + 40
    rw [e1]; omega

end Cert.KernelIdeal.Region2

end
-- ==== Proof.Region2Ops.lean ====
/-
  Lane reductions of a two-axis array read at a row, at the ideal values: a kernel's sum and maximum over the lanes
  (axis 1) of row `r`, and the host's maximum over the same lanes, each as a sum or a fold of `max` over the lane
  coordinate `k` of the entries (r, k).
-/
import Idealize.ShloMosaic.Lib.Pipeline.Value
import Idealize.ShloMosaic.Lib.ValueIdx
import Idealize.ShloMosaic.PureOps.Ideal.Laws

noncomputable section

namespace Cert.KernelIdeal.Region2

open Idealize.ShloMosaic Idealize.ShloMosaic.ValueIdx
open scoped BigOperators

variable {n L : Nat}

/-- Row index `r` of the reduced array with lane `k` put back is the entry (r, k). -/
theorem lift_lane (h : (⟨2, ![n, L]⟩ : Shape).Reduces [1] (⟨1, ![n]⟩ : Shape)) (r : Fin n)
    (k : Fin ((⟨2, ![n, L]⟩ : Shape).size 1)) : h.lift (ix1 r) k = ix2 r (⟨k.val, k.isLt⟩ : Fin L) := by
  funext c; apply Fin.ext
  fin_cases c <;> rfl

/-- A kernel's sum over the lanes, at row `r`: the sum over `k` of the entries (r, k). -/
theorem laneSum_apply (src : FVec Ideal ⟨2, ![n, L]⟩ .f32) (h : (⟨2, ![n, L]⟩ : Shape).Reduces [1] (⟨1, ![n]⟩ : Shape))
    (hφ : FKind.Formats .f32) (hacc : (0x00000000#32 : BitVec 32) = FKind.add.neutral .f32 hφ) (r : Fin n) :
    multiReduction .add [1] ⟨1, ![n]⟩ src 0x00000000#32 h hφ hacc (ix1 r) = ∑ k : Fin L, src (ix2 r k) :=
  (Ideal.multiReduction_add_single src 0x00000000#32 h hφ hacc (ix1 r)).trans
    (Finset.sum_congr rfl fun k _ => congrArg src (lift_lane h r k))

/-- A kernel's maximum over the lanes from −∞, at row `r`: the fold of `max` from −∞ over `k` of the entries (r, k). -/
theorem laneMax_apply (src : FVec Ideal ⟨2, ![n, L]⟩ .f32) (h : (⟨2, ![n, L]⟩ : Shape).Reduces [1] (⟨1, ![n]⟩ : Shape))
    (hφ : FKind.Formats .f32) (hacc : (0xFF800000#32 : BitVec 32) = FKind.maximumf.neutral .f32 hφ) (r : Fin n) :
    multiReduction .maximumf [1] ⟨1, ![n]⟩ src 0xFF800000#32 h hφ hacc (ix1 r)
      = (Finset.univ : Finset (Fin L)).fold max (Ideal.ofBits .f32 0xFF800000#32) (fun k => src (ix2 r k)) :=
  (Ideal.multiReduction_maximumf_single src 0xFF800000#32 h hφ hacc (ix1 r)).trans
    (congrArg (fun f => (Finset.univ : Finset (Fin L)).fold max (Ideal.ofBits .f32 0xFF800000#32) f)
      (funext fun k => congrArg src (lift_lane h r k)))

/-- The host's reduction by `maximum` over the lanes, at row `r`: the fold of `max` from the initial value over
    `k` of the entries (r, k). -/
theorem hostLaneMax_apply {u : Shape} (x : FVec Ideal ⟨2, ![n, L]⟩ .f32) (init : u.Idx → Ideal .f32)
    (h' : (⟨2, ![n, L]⟩ : Shape).ReducesTo [1] (⟨1, ![n]⟩ : Shape)) (h : (⟨2, ![n, L]⟩ : Shape).Reduces [1] (⟨1, ![n]⟩ : Shape))
    (hu : 0 < u.numel) (r : Fin n) :
    Host.reduce FloatOps.maximumf x init h' hu (ix1 r)
      = (Finset.univ : Finset (Fin L)).fold max (init (Shape.Idx.first hu)) (fun k => x (ix2 r k)) :=
  (Host.reduce_eq_fold_single FloatOps.maximumf x init h' h hu (ix1 r)).trans
    (congrArg (fun f => (Finset.univ : Finset (Fin L)).fold max (init (Shape.Idx.first hu)) f)
      (funext fun k => congrArg x (lift_lane h r k)))

end Cert.KernelIdeal.Region2

end
-- ==== Proof.LibColumn.lean ====
/-
  Column forms of the layout operations read at an index: a vector of `a` entries seen as an `a × 1` column,
  and such a column repeated along `b` columns. (The row forms, and the transpose, are the library's.)
-/
import Idealize.ShloMosaic.Lib.Pipeline.Value
import Idealize.ShloMosaic.Lib.ValueIdx
import Idealize.ShloMosaic.Lib.ValueLayout

namespace Idealize.ShloMosaic.ColumnForms

open Idealize.ShloMosaic Idealize.ShloMosaic.ValueIdx

variable {α : Type}

/-- An `[a]` array cast to the column `[a, 1]` reads, at `(i, u)`, the operand at `i`, whatever the unit
    coordinate `u`: both sit at row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, q)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ColumnForms
-- ==== Proof.Region2PayOut.lean ====
/-
  What the third kernel stores for its first result, as a function of the block of rows it loads: every row of the
  block scaled to unit length. The kernel squares the block, sums each row's 96 squares over the lanes, floors the sum
  at a small constant, takes the reciprocal square root as a column of 2000 scales, lays the column along the 96 lanes
  and multiplies. Read at entry (r, k) this is the entry times row `r`'s scale.
-/
import proofs.«108269_j85718957294354_1_alg».proof.Proof.Gen.KernelIdeal.Skeleton
import proofs.«108269_j85718957294354_1_alg».proof.Proof.Region2Spec
import proofs.«108269_j85718957294354_1_alg».proof.Proof.Region2Ops
import proofs.«108269_j85718957294354_1_alg».proof.Proof.LibColumn

noncomputable section

namespace Cert.KernelIdeal.Region2

open Cert.KernelIdeal Cert.KernelIdeal.Gen
open Idealize.ShloMosaic Idealize.ShloMosaic.ValueIdx Idealize.ShloMosaic.ColumnForms
open scoped BigOperators

/-- The payload of the first store is the block with each row scaled to unit length. -/
theorem pay1_eq (x : Vec Ideal S2000x96 .f32) : k2_pay1 x = l2norm x := by
  funext j
  obtain ⟨r, k, rfl⟩ : ∃ (r : Fin 2000) (k : Fin 96), j = ix2 r k := ⟨j 0, j 1, eq_ix2 j⟩
  rw [l2norm_apply]
  unfold k2_pay1
  dsimp only
  -- the cast of the block to its own shape is the block
  rw [shapeCast_self]
  refine congrArg (x (ix2 r k) * ·) ?_
  -- the column of scales laid along the lanes, at (r, k), is the column's entry of row r
  refine (broadcastTo_a1_ab_apply _ broadcasts_S2000x1_S2000x96 r k).trans ?_
  unfold rowScale
  refine congrArg (fun s => Ideal.rsqrt (max s eps)) ?_
  -- the row sums as a column, at (r, 0), are the row sums at r: the sum over the lanes of the squares
  refine (shapeCast_a_a1_apply _ shapeCasts_S2000_S2000x1 r 0).trans ?_
  exact laneSum_apply _ reduces_S2000x96_S2000 _ _ r

end Cert.KernelIdeal.Region2

end
-- ==== Proof.Region2RefOut.lean ====
/-
  The reference's normalised array, read index by index. The host program squares its 50000 × 96 array `h`, sums
  each row over axis 1 from the zero word, lays the sums out as a column, floors them at a small constant, takes the
  reciprocal square root, lays the column along the 96 lanes and multiplies `h` by it. Reading each stage at an
  index gives, at (r, k), the entry of `h` times row `r`'s scale. The array `h` itself (the earlier layers'
  result) is never opened.
-/
import proofs.«108269_j85718957294354_1_alg».proof.Proof.Gen.ReferenceIdeal.Read
import proofs.«108269_j85718957294354_1_alg».proof.Proof.Region2Spec

noncomputable section

namespace Cert.KernelIdeal.Region2

open Idealize.ShloMosaic Idealize.ShloMosaic.ValueIdx
open Cert.ReferenceIdeal.Read
open scoped BigOperators

/-- The stages' composed index maps: the entry the row sum of (r, k)'s row reads for lane `k'` is (r, k'). -/
theorem idx_row (r : Fin 50000) (k k' : Fin 96) : idx_main_v31 (idx_main_v32 (idx_main_v36 (ix2 r k))) k' = ix2 r k' :=
  funext fun a => Fin.ext (by match a with | ⟨0, _⟩ => rfl | ⟨1, _⟩ => rfl)

/-- The reference's normalised array at (r, k). -/
theorem ref37_apply (x0 x1 : (⟨Cert.ReferenceIdeal.S800000, .i32⟩ : BufTy).Contents (Elt Ideal)) (x2 : (⟨Cert.ReferenceIdeal.S800000, .f32⟩ : BufTy).Contents (Elt Ideal))
    (x3 : (⟨Cert.ReferenceIdeal.S50000x96, .f32⟩ : BufTy).Contents (Elt Ideal)) (x4 x5 : (⟨Cert.ReferenceIdeal.S96x96, .f32⟩ : BufTy).Contents (Elt Ideal))
    (r : Fin 50000) (k : Fin 96) :
    val_main_v37 (F := Ideal) x0 x1 x2 x3 x4 x5 (ix2 r k) = l2norm (n := 50000) (val_main_v29 (F := Ideal) x0 x1 x2 x3 x4 x5) (ix2 r k) := by
  rw [val_main_v37_apply, val_main_v36_apply, val_main_v35_apply, val_main_v34_apply, val_main_v32_apply, val_main_v33_apply,
    val_main_cst_5_apply, val_main_v31_apply, val_main_cst_4_apply]
  unfold val_main_v30
  rw [Finset.sum_congr rfl (fun k' _ => by rw [idx_row r k k'])]
  exact l2norm_host_form (val_main_v29 (F := Ideal) x0 x1 x2 x3 x4 x5) r k

/-- The reference's normalised array is `h` with every row scaled to unit length. -/
theorem ref37_eq (x0 x1 : (⟨Cert.ReferenceIdeal.S800000, .i32⟩ : BufTy).Contents (Elt Ideal)) (x2 : (⟨Cert.ReferenceIdeal.S800000, .f32⟩ : BufTy).Contents (Elt Ideal))
    (x3 : (⟨Cert.ReferenceIdeal.S50000x96, .f32⟩ : BufTy).Contents (Elt Ideal)) (x4 x5 : (⟨Cert.ReferenceIdeal.S96x96, .f32⟩ : BufTy).Contents (Elt Ideal)) :
    val_main_v37 (F := Ideal) x0 x1 x2 x3 x4 x5 = l2norm (n := 50000) (val_main_v29 (F := Ideal) x0 x1 x2 x3 x4 x5) :=
  funext fun i => by
    rw [eq_ix2 i]
    exact ref37_apply x0 x1 x2 x3 x4 x5 (i 0) (i 1)

end Cert.KernelIdeal.Region2

end
-- ==== Proof.Region2Out.lean ====
/-
  The first result of the third kernel, as a whole array: the input array with every row scaled to unit length, which
  is what the reference computes. Each of the 25 grid points writes back a block of 2000 rows; the body's result for
  a block is the row-wise normalisation of the block it loaded, and normalising a row needs that row only, so block
  `t` written back is block `t` of the normalised whole array. The blocks cover all 50000 rows, so the array the
  kernel leaves is the normalised array. Everything is first said of an arbitrary input array `h`; the reference's
  own input enters in the last step only, by name.
-/
import proofs.«108269_j85718957294354_1_alg».proof.Proof.Gen.KernelIdeal.Frame
import proofs.«108269_j85718957294354_1_alg».proof.Proof.Region2Spec
import proofs.«108269_j85718957294354_1_alg».proof.Proof.Region2Blocks
import proofs.«108269_j85718957294354_1_alg».proof.Proof.Region2PayOut
import proofs.«108269_j85718957294354_1_alg».proof.Proof.Region2RefOut
import Idealize.ShloMosaic.Lib.Pipeline.Value
import Idealize.ShloMosaic.Lib.ValueIdx

noncomputable section

namespace Cert.KernelIdeal.Region2

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-! ## Over an arbitrary input array -/

/-- Entry (r, k) of what point `t` computes for the first result, when the region's input array is `h`: entry
    (2000 t + r, k) of `h` normalised row by row. The row of the block is that row of the array. -/
theorem normalized_entry_of (c : Dev nD) (h : S50000x96.Idx → EReal) (h29 : V c main_v29 = h)
    (t : Fin cfg2.N) (r : Fin 2000) (k : Fin 96) :
    k2_pay1 (F := Ideal) (iblk2 V c 0 t) (ix2 r k) = l2norm h (ix2 (rowOf t r) k) := by
  rw [pay1_eq]
  exact l2norm_block (iblk2 V c 0 t) h (rowOf t) (fun r' k' => by rw [iblk0_apply, h29]) r k

/-- What point `t` writes back for the first result is block `t` of the normalised input array. -/
theorem flushed3_of (c : Dev nD) (h : S50000x96.Idx → EReal) (h29 : V c main_v29 = h) (t : Fin cfg2.N) :
    (dat2 V c).flushed 3 t = ((cfg2.win 3).blk t).view.read (Elt Ideal) (l2norm h) := by
  show (cfg2.win 3).cut (grid2.coords t) ((dat2 V c).after 3 t) = _
  rw [after2_3]
  unfold out2_3
  rw [View.canon_unit_zero hz, View.ld_unit_zero (S := S2000x96) hz]
  funext j
  obtain ⟨r, k, rfl⟩ : ∃ (r : Fin 2000) (k : Fin 96), j = ix2 r k := ⟨j 0, j 1, eq_ix2 j⟩
  show k2_pay1 (F := Ideal) (iblk2 V c 0 t) (ix2 r k) = l2norm h (((cfg2.win 3).blk t).view.emb (ix2 r k))
  rw [emb3]
  exact normalized_entry_of V c h h29 t r k

/-- The first result after the kernel is the normalised input array: the 25 blocks cover it. -/
theorem out_value_of (c : Dev nD) (h : S50000x96.Idx → EReal) (h29 : V c main_v29 = h) :
    (dat2 V c).arrAt 3 cfg2.N = l2norm h :=
  (dat2 V c).arrAt_eq_of_cover 3 (l2norm h) (fun t _ => flushed3_of V c h h29 t) cover3

/-! ## Against the reference -/

/-- Entry (r, k) of what point `t` computes for the first result is the reference's normalised array at the place
    of the result that entry is written to, row `2000 t + r`. -/
theorem normalized_entry (c : Dev nD) (x0 x1 : (⟨S800000, .i32⟩ : BufTy).Contents (Elt Ideal)) (x2 : (⟨S800000, .f32⟩ : BufTy).Contents (Elt Ideal))
    (x3 : (⟨S50000x96, .f32⟩ : BufTy).Contents (Elt Ideal)) (x4 x5 : (⟨S96x96, .f32⟩ : BufTy).Contents (Elt Ideal))
    (h29 : V c main_v29 = Cert.ReferenceIdeal.Read.val_main_v29 (F := Ideal) x0 x1 x2 x3 x4 x5)
    (t : Fin cfg2.N) (r : Fin 2000) (k : Fin 96) :
    k2_pay1 (F := Ideal) (iblk2 V c 0 t) (ix2 r k)
      = Cert.ReferenceIdeal.Read.val_main_v37 (F := Ideal) x0 x1 x2 x3 x4 x5 (((cfg2.win 3).blk t).view.emb (ix2 r k)) :=
  (normalized_entry_of V c (Cert.ReferenceIdeal.Read.val_main_v29 (F := Ideal) x0 x1 x2 x3 x4 x5) h29 t r k).trans
    ((ref37_apply x0 x1 x2 x3 x4 x5 (rowOf t r) k).symm.trans
      (congrArg (Cert.ReferenceIdeal.Read.val_main_v37 (F := Ideal) x0 x1 x2 x3 x4 x5) (emb3 t r k).symm))

/-- The first result after the kernel is the reference's normalised array. -/
theorem out_value (c : Dev nD) (x0 x1 : (⟨S800000, .i32⟩ : BufTy).Contents (Elt Ideal)) (x2 : (⟨S800000, .f32⟩ : BufTy).Contents (Elt Ideal))
    (x3 : (⟨S50000x96, .f32⟩ : BufTy).Contents (Elt Ideal)) (x4 x5 : (⟨S96x96, .f32⟩ : BufTy).Contents (Elt Ideal))
    (h29 : V c main_v29 = Cert.ReferenceIdeal.Read.val_main_v29 (F := Ideal) x0 x1 x2 x3 x4 x5) :
    (dat2 V c).arrAt 3 cfg2.N = Cert.ReferenceIdeal.Read.val_main_v37 (F := Ideal) x0 x1 x2 x3 x4 x5 :=
  (out_value_of V c (Cert.ReferenceIdeal.Read.val_main_v29 (F := Ideal) x0 x1 x2 x3 x4 x5) h29).trans
    (ref37_eq x0 x1 x2 x3 x4 x5).symm

end Cert.KernelIdeal.Region2

end
-- ==== Proof.Region2OutXHost.lean ====
/-
  The host's spellings of the classification stages, each read at one entry over ARBITRARY arrays: a score as the
  host's sum plus the bias entry, a row's maximum as the host's reduction by `maximum` from −∞ followed by one more
  maximum against −∞, the exponential of a score less the maximum, and the quotient by the row's sum started from the
  zero word. Each is the matching piece of the softmax of the scores; adding to zero is the only arithmetic used.
-/
import proofs.«108269_j85718957294354_1_alg».proof.Proof.Region2Spec
import proofs.«108269_j85718957294354_1_alg».proof.Proof.Region2Ops

noncomputable section

namespace Cert.KernelIdeal.Region2

open Idealize.ShloMosaic Idealize.ShloMosaic.ValueIdx
open scoped BigOperators

variable {n : Nat}

/-- The host's score: the row against the column, plus the bias vector's entry. -/
theorem score_host_form (o : (⟨2, ![n, 96]⟩ : Shape).Idx → EReal) (w : (⟨2, ![96, 40]⟩ : Shape).Idx → EReal)
    (b7 : (⟨1, ![40]⟩ : Shape).Idx → EReal) (R : Fin n) (q : Fin 40) :
    FloatOps.addf (F := Ideal) (φ := .f32) (∑ k : Fin 96, o (ix2 R k) * w (ix2 k q)) (b7 (ix1 q))
      = score o w (fun q' => b7 (ix1 q')) R q := rfl

/-- The host's row maximum: its reduction by `maximum` over the 40 lanes of row `R` of an array `s` whose row `R`
    holds the scores, from an initial value that is −∞, then the maximum against −∞. -/
theorem rowMax_host_form {u : Shape} (s : FVec Ideal ⟨2, ![n, 40]⟩ .f32) (init : u.Idx → Ideal .f32)
    (h' : (⟨2, ![n, 40]⟩ : Shape).ReducesTo [1] (⟨1, ![n]⟩ : Shape)) (h : (⟨2, ![n, 40]⟩ : Shape).Reduces [1] (⟨1, ![n]⟩ : Shape))
    (hu : 0 < u.numel) (R : Fin n)
    (o : (⟨2, ![n, 96]⟩ : Shape).Idx → EReal) (w : (⟨2, ![96, 40]⟩ : Shape).Idx → EReal) (b : Fin 40 → EReal)
    (hs : ∀ q, s (ix2 R q) = score o w b R q) (hinit : init (Shape.Idx.first hu) = negInf) :
    FloatOps.maximumf (F := Ideal) (φ := .f32) (FloatOps.ofBits (F := Ideal) .f32 0xFF800000#32)
        (Host.reduce FloatOps.maximumf s init h' hu (ix1 R))
      = rowMax o w b R := by
  unfold rowMax
  refine congrArg (max negInf ·) ?_
  rw [hostLaneMax_apply s init h' h hu R, hinit]
  exact congrArg (fun f => (Finset.univ : Finset (Fin 40)).fold max negInf f) (funext hs)

/-- The host's exponential of a score less its row's maximum. -/
theorem expScore_host_form (o : (⟨2, ![n, 96]⟩ : Shape).Idx → EReal) (w : (⟨2, ![96, 40]⟩ : Shape).Idx → EReal) (b : Fin 40 → EReal)
    (R : Fin n) (q : Fin 40) :
    FloatOps.hostUnary (F := Ideal) (φ := .f32) .exp (FloatOps.subf (F := Ideal) (φ := .f32) (score o w b R q) (rowMax o w b R))
      = expScore o w b R q := rfl

/-- The host's quotient by the row's sum of exponentials, the sum started from the zero word. -/
theorem classify_host_form (o : (⟨2, ![n, 96]⟩ : Shape).Idx → EReal) (w : (⟨2, ![96, 40]⟩ : Shape).Idx → EReal) (b : Fin 40 → EReal)
    (R : Fin n) (q : Fin 40) :
    FloatOps.hostDivf (F := Ideal) (φ := .f32) (expScore o w b R q)
        (FloatOps.ofBits (F := Ideal) .f32 0x00000000#32 + ∑ k : Fin 40, expScore o w b R k)
      = classify o w b (ix2 R q) := by
  rw [classify_apply, Ideal.ofBits_def, Ideal.ofBits_zero_f32, zero_add]
  rfl

end Cert.KernelIdeal.Region2

end
-- ==== Proof.Region2OutXRef.lean ====
/-
  The reference's probabilities, read entry by entry. From its normalised 50000 × 96 array the host program takes the
  product with the 96 × 40 weights, adds the bias laid along the rows, reduces each row by `maximum` from −∞ and takes
  the maximum against −∞ once more, subtracts, exponentiates, sums each row from the zero word and divides. Reading
  each stage at an index gives, at (R, q), the softmax of row `R`'s scores at class `q`. The row maximum is the one
  stage read by hand: a fold of `max` over the 40 lanes of the row.
-/
import proofs.«108269_j85718957294354_1_alg».proof.Proof.Gen.ReferenceIdeal.Read
import proofs.«108269_j85718957294354_1_alg».proof.Proof.Region2Spec
import proofs.«108269_j85718957294354_1_alg».proof.Proof.Region2Ops
import proofs.«108269_j85718957294354_1_alg».proof.Proof.Region2OutXHost

noncomputable section

namespace Cert.KernelIdeal.Region2

open Idealize.ShloMosaic Idealize.ShloMosaic.ValueIdx
open Cert.ReferenceIdeal.Read
open scoped BigOperators

/-! ## The stages' composed index maps, at (R, q) -/

theorem idx_lhs (R : Fin 50000) (q : Fin 40) (k : Fin 96) : lidx_main_v38 (ix2 R q) k = ix2 R k :=
  funext fun a => Fin.ext (by match a with | ⟨0, _⟩ => rfl | ⟨1, _⟩ => rfl)

theorem idx_rhs (R : Fin 50000) (q : Fin 40) (k : Fin 96) : ridx_main_v38 (ix2 R q) k = ix2 k q :=
  funext fun a => Fin.ext (by match a with | ⟨0, _⟩ => rfl | ⟨1, _⟩ => rfl)

theorem idx_bias (R : Fin 50000) (q : Fin 40) : idx_main_v39 (idx_main_v40 (ix2 R q)) = ix1 q :=
  funext fun a => Fin.ext (by match a with | ⟨0, _⟩ => rfl)

theorem idx_max (R : Fin 50000) (q : Fin 40) : idx_main_v45 (idx_main_v46 (ix2 R q)) = ix1 R :=
  funext fun a => Fin.ext (by match a with | ⟨0, _⟩ => rfl)

theorem idx_sum (R : Fin 50000) (q k : Fin 40) : idx_main_v49 (idx_main_v50 (idx_main_v51 (ix2 R q))) k = ix2 R k :=
  funext fun a => Fin.ext (by match a with | ⟨0, _⟩ => rfl | ⟨1, _⟩ => rfl)

/-! ## The stages at an entry -/

/-- The reference's scores at (R, q): row `R` of the normalised array against column `q` of the weights, plus the bias. -/
theorem ref41_apply (x0 x1 : (⟨Cert.ReferenceIdeal.S800000, .i32⟩ : BufTy).Contents (Elt Ideal)) (x2 : (⟨Cert.ReferenceIdeal.S800000, .f32⟩ : BufTy).Contents (Elt Ideal))
    (x3 : (⟨Cert.ReferenceIdeal.S50000x96, .f32⟩ : BufTy).Contents (Elt Ideal)) (x4 x5 : (⟨Cert.ReferenceIdeal.S96x96, .f32⟩ : BufTy).Contents (Elt Ideal))
    (x6 : (⟨Cert.ReferenceIdeal.S96x40, .f32⟩ : BufTy).Contents (Elt Ideal)) (x7 : (⟨Cert.ReferenceIdeal.S40, .f32⟩ : BufTy).Contents (Elt Ideal)) (R : Fin 50000) (q : Fin 40) :
    val_main_v41 (F := Ideal) x0 x1 x2 x3 x4 x5 x6 x7 (ix2 R q)
      = score (n := 50000) (val_main_v37 (F := Ideal) x0 x1 x2 x3 x4 x5) x6 (fun q' => x7 (ix1 q')) R q := by
  rw [val_main_v41_apply, val_main_v38_apply, val_main_v40_apply, val_main_v39_apply, idx_bias R q,
    Finset.sum_congr rfl (fun k _ => by rw [idx_lhs R q k, idx_rhs R q k])]
  exact score_host_form (val_main_v37 (F := Ideal) x0 x1 x2 x3 x4 x5) x6 x7 R q

/-- The reference's row maximum at row `R`: the reduction by `maximum` of the scores from −∞, then against −∞. -/
theorem ref44_apply (x0 x1 : (⟨Cert.ReferenceIdeal.S800000, .i32⟩ : BufTy).Contents (Elt Ideal)) (x2 : (⟨Cert.ReferenceIdeal.S800000, .f32⟩ : BufTy).Contents (Elt Ideal))
    (x3 : (⟨Cert.ReferenceIdeal.S50000x96, .f32⟩ : BufTy).Contents (Elt Ideal)) (x4 x5 : (⟨Cert.ReferenceIdeal.S96x96, .f32⟩ : BufTy).Contents (Elt Ideal))
    (x6 : (⟨Cert.ReferenceIdeal.S96x40, .f32⟩ : BufTy).Contents (Elt Ideal)) (x7 : (⟨Cert.ReferenceIdeal.S40, .f32⟩ : BufTy).Contents (Elt Ideal)) (R : Fin 50000) :
    val_main_v44 (F := Ideal) x0 x1 x2 x3 x4 x5 x6 x7 (ix1 R)
      = rowMax (n := 50000) (val_main_v37 (F := Ideal) x0 x1 x2 x3 x4 x5) x6 (fun q' => x7 (ix1 q')) R := by
  rw [val_main_v44_apply, val_main_v43_apply, val_main_cst_7_apply]
  unfold val_main_v42
  exact rowMax_host_form (val_main_v41 (F := Ideal) x0 x1 x2 x3 x4 x5 x6 x7) (val_main_cst_6 (F := Ideal))
    Cert.ReferenceIdeal.Gen.reducesTo_S50000x40_S50000_d1 (by decide) Cert.ReferenceIdeal.Gen.h_S_ R
    (val_main_v37 (F := Ideal) x0 x1 x2 x3 x4 x5) x6 (fun q' => x7 (ix1 q'))
    (fun q => ref41_apply x0 x1 x2 x3 x4 x5 x6 x7 R q) rfl

/-- The reference's exponentials at (R, q). -/
theorem ref48_apply (x0 x1 : (⟨Cert.ReferenceIdeal.S800000, .i32⟩ : BufTy).Contents (Elt Ideal)) (x2 : (⟨Cert.ReferenceIdeal.S800000, .f32⟩ : BufTy).Contents (Elt Ideal))
    (x3 : (⟨Cert.ReferenceIdeal.S50000x96, .f32⟩ : BufTy).Contents (Elt Ideal)) (x4 x5 : (⟨Cert.ReferenceIdeal.S96x96, .f32⟩ : BufTy).Contents (Elt Ideal))
    (x6 : (⟨Cert.ReferenceIdeal.S96x40, .f32⟩ : BufTy).Contents (Elt Ideal)) (x7 : (⟨Cert.ReferenceIdeal.S40, .f32⟩ : BufTy).Contents (Elt Ideal)) (R : Fin 50000) (q : Fin 40) :
    val_main_v48 (F := Ideal) x0 x1 x2 x3 x4 x5 x6 x7 (ix2 R q)
      = expScore (n := 50000) (val_main_v37 (F := Ideal) x0 x1 x2 x3 x4 x5) x6 (fun q' => x7 (ix1 q')) R q := by
  rw [val_main_v48_apply, val_main_v47_apply, val_main_v46_apply, val_main_v45_apply, idx_max R q,
    ref41_apply, ref44_apply]
  exact expScore_host_form (val_main_v37 (F := Ideal) x0 x1 x2 x3 x4 x5) x6 (fun q' => x7 (ix1 q')) R q

/-- The reference's probabilities at (R, q): the softmax of row `R`'s scores. -/
theorem ref52_apply (x0 x1 : (⟨Cert.ReferenceIdeal.S800000, .i32⟩ : BufTy).Contents (Elt Ideal)) (x2 : (⟨Cert.ReferenceIdeal.S800000, .f32⟩ : BufTy).Contents (Elt Ideal))
    (x3 : (⟨Cert.ReferenceIdeal.S50000x96, .f32⟩ : BufTy).Contents (Elt Ideal)) (x4 x5 : (⟨Cert.ReferenceIdeal.S96x96, .f32⟩ : BufTy).Contents (Elt Ideal))
    (x6 : (⟨Cert.ReferenceIdeal.S96x40, .f32⟩ : BufTy).Contents (Elt Ideal)) (x7 : (⟨Cert.ReferenceIdeal.S40, .f32⟩ : BufTy).Contents (Elt Ideal)) (R : Fin 50000) (q : Fin 40) :
    val_main_v52 (F := Ideal) x0 x1 x2 x3 x4 x5 x6 x7 (ix2 R q)
      = classify (n := 50000) (val_main_v37 (F := Ideal) x0 x1 x2 x3 x4 x5) x6 (fun q' => x7 (ix1 q')) (ix2 R q) := by
  rw [val_main_v52_apply, val_main_v51_apply, val_main_v50_apply, val_main_v49_apply, val_main_cst_8_apply,
    Finset.sum_congr rfl (fun k _ => by rw [idx_sum R q k, ref48_apply]), ref48_apply]
  exact classify_host_form (val_main_v37 (F := Ideal) x0 x1 x2 x3 x4 x5) x6 (fun q' => x7 (ix1 q')) R q

end Cert.KernelIdeal.Region2

end
-- ==== Proof.Region2Probs.lean ====
/-
  The second result: the softmax of (normalized rows) · wc + bias, block by block.

  Each grid point handles 2000 rows. Over a block, the body's arithmetic is row-wise: a row's 40 logits are that row of
  the normalized block against the classifier's weights plus the bias; the row's maximum, its shifted exponentials and
  their sum use that row's logits only. So entry (r, j) of the block the point writes back is the softmax of row
  2000·t + r of the whole array's logits, and the 25 blocks tile the 50000 rows.
-/
import proofs.«108269_j85718957294354_1_alg».proof.Proof.Region2Out
import proofs.«108269_j85718957294354_1_alg».proof.Proof.Region2OutXRef
import proofs.«108269_j85718957294354_1_alg».proof.Proof.LibPlainDot
import proofs.«108269_j85718957294354_1_alg».proof.Proof.LibColumn
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Classifier

open Cert.KernelIdeal Cert.KernelIdeal.Gen
open Idealize.ShloMosaic Idealize.ShloMosaic.TcCoe Idealize.ShloMosaic.ValueIdx Idealize.SL.Sem
open Idealize.ShloMosaic.Pipeline (Dat)
open scoped BigOperators

/-- The f32 word of minus infinity, as an extended real. -/
abbrev negInf : EReal := Ideal.ofBits .f32 0xFF800000#32

/-- A vector of 2000 row values, seen as a column and repeated along 40 lanes, reads the row's value. -/
theorem column40 (v : FVec Ideal S2000 .f32) (h1 : S2000.ShapeCasts S2000x1) (h2 : S2000x1.Broadcasts S2000x40) (r : Fin 2000) (j : Fin 40) :
    broadcastTo S2000x40 (shapeCast S2000x1 v h1) h2 (ix2 r j) = v (ix1 r) :=
  (Idealize.ShloMosaic.ColumnForms.broadcastTo_a1_ab_apply _ h2 r j).trans
    (Idealize.ShloMosaic.ColumnForms.shapeCast_a_a1_apply v h1 r (0 : Fin 1))

/-- The one-row bias block, laid down the 2000 rows, reads the bias of the lane. -/
theorem bias_rows (b : FVec Ideal S1x40 .f32) (h0 : S1x40.ShapeCasts S1x40) (h : S1x40.Broadcasts S2000x40) (r : Fin 2000) (j : Fin 40) :
    broadcastTo S2000x40 (shapeCast S1x40 b h0) h (ix2 r j) = b (ix2 (0 : Fin 1) j) := by
  rw [shapeCast_self]
  exact broadcastTo_1b_ab_apply b h r j

/-- A row's maximum over its 40 lanes, started from minus infinity. -/
theorem row_max (src : FVec Ideal S2000x40 .f32) (h : S2000x40.Reduces [1] S2000) (hφ : FKind.Formats .f32)
    (hacc : (0xFF800000#32 : BitVec 32) = FKind.maximumf.neutral .f32 hφ) (r : Fin 2000) :
    multiReduction .maximumf [1] S2000 src 0xFF800000#32 h hφ hacc (ix1 r)
      = (Finset.univ : Finset (Fin 40)).fold max negInf (fun j => src (ix2 r j)) := by
  refine (Ideal.multiReduction_maximumf_single src 0xFF800000#32 h hφ hacc (ix1 r)).trans ?_
  show (Finset.univ : Finset (Fin 40)).fold max negInf (src ∘ h.lift (ix1 r)) = _
  refine congrArg (fun f : Fin 40 → EReal => (Finset.univ : Finset (Fin 40)).fold max negInf f) (funext fun j => ?_)
  show src (h.lift (ix1 r) j) = src (ix2 r j)
  refine congrArg src (funext fun a => Fin.ext ?_)
  match a with
  | ⟨0, _⟩ => rfl
  | ⟨1, _⟩ => rfl

/-- A row's sum over its 40 lanes (the accumulator is the zero word, which the reduction at the ideal values drops). -/
theorem row_sum (src : FVec Ideal S2000x40 .f32) (h : S2000x40.Reduces [1] S2000) (hφ : FKind.Formats .f32)
    (hacc : (0x00000000#32 : BitVec 32) = FKind.add.neutral .f32 hφ) (r : Fin 2000) :
    multiReduction .add [1] S2000 src 0x00000000#32 h hφ hacc (ix1 r) = ∑ j : Fin 40, src (ix2 r j) := by
  refine (Ideal.multiReduction_add_single src 0x00000000#32 h hφ hacc (ix1 r)).trans ?_
  show ∑ j : Fin 40, src (h.lift (ix1 r) j) = _
  refine Finset.sum_congr rfl fun j _ => ?_
  refine congrArg src (funext fun a => Fin.ext ?_)
  match a with
  | ⟨0, _⟩ => rfl
  | ⟨1, _⟩ => rfl

/-- Entry (r, j) of the block's logits before the bias: the sum over k of out(r, k) · wc(k, j). -/
theorem logits_product (o : FVec Ideal S2000x96 .f32) (wc : Vec Ideal S96x40 .f32) (r : Fin 2000) (j : Fin 40) :
    matmul dot_S2000x96_S96x40_S2000x40_1_0_0_1_n_n none (truncf .bf16 o Facts₀.bitsLt_bf16_f32) (truncf .bf16 wc Facts₀.bitsLt_bf16_f32)
        (constant (F := Ideal) S2000x40 .f32 0x00000000#32) (ix2 r j)
      = ∑ k : Fin 96, o (ix2 r k) * wc (ix2 k j) :=
  Cert.LibPlainDot.matmul_plain_zero_apply _ rfl none _ _ r j

/-! ## The block body of the classifier, over a variable block of logits -/

/-- exp(L − row maximum), the row maximum taken from minus infinity and once more against minus infinity, as printed. -/
def expShifted (L : FVec Ideal S2000x40 .f32) : FVec Ideal S2000x40 .f32 :=
  exp (subf L (broadcastTo S2000x40 (shapeCast S2000x1
    (maximumf (broadcast S2000 (Scalar.ofBits (F := Ideal) .f32 0xFF800000#32))
      (multiReduction .maximumf [1] S2000 L 0xFF800000#32 Facts₀.reduces_S2000x40_S2000 (.inl rfl) rfl))
    Facts₀.shapeCasts_S2000_S2000x1) Facts₀.broadcasts_S2000x1_S2000x40))

/-- The shifted exponentials divided by their row sums. -/
def softmaxBlock (L : FVec Ideal S2000x40 .f32) : FVec Ideal S2000x40 .f32 :=
  divf (expShifted L) (broadcastTo S2000x40 (shapeCast S2000x1
    (multiReduction .add [1] S2000 (expShifted L) 0x00000000#32 Facts₀.reduces_S2000x40_S2000 (.inl rfl) rfl)
    Facts₀.shapeCasts_S2000_S2000x1) Facts₀.broadcasts_S2000x1_S2000x40)

/-- The block's logits: (normalized rows) · wc + bias. -/
def logitsBlock (x : Vec Ideal S2000x96 .f32) (wc : Vec Ideal S96x40 .f32) (b : Vec Ideal S1x40 .f32) : FVec Ideal S2000x40 .f32 :=
  addf (matmul dot_S2000x96_S96x40_S2000x40_1_0_0_1_n_n none (truncf .bf16 (k2_pay1 (F := Ideal) x) Facts₀.bitsLt_bf16_f32)
      (truncf .bf16 wc Facts₀.bitsLt_bf16_f32) (constant (F := Ideal) S2000x40 .f32 0x00000000#32))
    (broadcastTo S2000x40 (shapeCast S1x40 b Facts₀.shapeCasts_S1x40_S1x40) Facts₀.broadcasts_S1x40_S2000x40)

/-- The printed payload of the second result is the softmax of the block's logits. -/
theorem payload_eq (x : Vec Ideal S2000x96 .f32) (wc : Vec Ideal S96x40 .f32) (b : Vec Ideal S1x40 .f32) :
    k2_pay2 (F := Ideal) x wc b = softmaxBlock (logitsBlock x wc b) := rfl

/-- A row's maximum as the body takes it. -/
def rowMax (ℓ : Fin 40 → EReal) : EReal := max negInf ((Finset.univ : Finset (Fin 40)).fold max negInf ℓ)

/-- The softmax of one row of 40 logits, in the body's spelling: exp(ℓ j − max) over the sum of those. -/
def softmaxRow (ℓ : Fin 40 → EReal) (j : Fin 40) : EReal :=
  Ideal.div (Ideal.exp (ℓ j - rowMax ℓ)) (∑ j' : Fin 40, Ideal.exp (ℓ j' - rowMax ℓ))

theorem expShifted_apply (L : FVec Ideal S2000x40 .f32) (r : Fin 2000) (j : Fin 40) :
    expShifted L (ix2 r j) = Ideal.exp (L (ix2 r j) - rowMax fun j' => L (ix2 r j')) := by
  unfold expShifted
  show Ideal.exp (L (ix2 r j) - broadcastTo S2000x40 (shapeCast S2000x1 _ _) _ (ix2 r j)) = _
  refine congrArg (fun z => Ideal.exp (L (ix2 r j) - z)) ?_
  refine (column40 _ _ _ r j).trans ?_
  show max negInf (multiReduction .maximumf [1] S2000 L 0xFF800000#32 Facts₀.reduces_S2000x40_S2000 (.inl rfl) rfl (ix1 r)) = _
  exact congrArg (max negInf) (row_max L _ _ _ r)

theorem softmaxBlock_apply (L : FVec Ideal S2000x40 .f32) (r : Fin 2000) (j : Fin 40) :
    softmaxBlock L (ix2 r j) = softmaxRow (fun j' => L (ix2 r j')) j := by
  unfold softmaxBlock softmaxRow
  show Ideal.div (expShifted L (ix2 r j)) (broadcastTo S2000x40 (shapeCast S2000x1 _ _) _ (ix2 r j)) = _
  rw [expShifted_apply]
  refine congrArg (Ideal.div _) ?_
  refine (column40 _ _ _ r j).trans ?_
  refine (row_sum (expShifted L) _ _ _ r).trans ?_
  exact Finset.sum_congr rfl fun j' _ => expShifted_apply L r j'

theorem logitsBlock_apply (x : Vec Ideal S2000x96 .f32) (wc : Vec Ideal S96x40 .f32) (b : Vec Ideal S1x40 .f32) (r : Fin 2000) (j : Fin 40) :
    logitsBlock x wc b (ix2 r j) = (∑ k : Fin 96, k2_pay1 (F := Ideal) x (ix2 r k) * wc (ix2 k j)) + b (ix2 (0 : Fin 1) j) := by
  unfold logitsBlock
  exact congrArg₂ (fun p q : EReal => p + q) (logits_product (k2_pay1 (F := Ideal) x) wc r j) (bias_rows b _ _ r j)

/-- Entry (r, j) of the second result's block: the softmax of row r of the block's logits. -/
theorem probs_block (x : Vec Ideal S2000x96 .f32) (wc : Vec Ideal S96x40 .f32) (b : Vec Ideal S1x40 .f32) (r : Fin 2000) (j : Fin 40) :
    k2_pay2 (F := Ideal) x wc b (ix2 r j)
      = softmaxRow (fun j' => (∑ k : Fin 96, k2_pay1 (F := Ideal) x (ix2 r k) * wc (ix2 k j')) + b (ix2 (0 : Fin 1) j')) j := by
  rw [payload_eq, softmaxBlock_apply]
  exact congrArg (fun ℓ => softmaxRow ℓ j) (funext fun j' => logitsBlock_apply x wc b r j')

/-! ## From blocks to the array -/

/-- The whole-array softmax of scores at (R, j) is the row softmax of row R's scores. -/
theorem classify_row {n : Nat} (o : (⟨2, ![n, 96]⟩ : Shape).Idx → EReal) (w : (⟨2, ![96, 40]⟩ : Shape).Idx → EReal) (b : Fin 40 → EReal) (R : Fin n) (j : Fin 40) :
    Cert.KernelIdeal.Region2.classify o w b (ix2 R j) = softmaxRow (fun j' => Cert.KernelIdeal.Region2.score o w b R j') j := rfl

section Array

variable (V : (c : Dev nD) → (b : Ref sig .tc) → Buf (Elt Ideal) ((c : Thread nD τ).loc b))

/-- What point t writes back into the second result is block t of P, for any array P that is entry by entry the softmax
    of the scores of an array o of normalized rows — given that the point's normalized block is block t of o and that the
    region finds the weights w and the bias (as one row) in its other two operand arrays. -/
theorem flushed4 (c : Dev nD) (o : (⟨2, ![50000, 96]⟩ : Shape).Idx → EReal) (w : (⟨2, ![96, 40]⟩ : Shape).Idx → EReal) (bv : (⟨1, ![40]⟩ : Shape).Idx → EReal) (P : (⟨2, ![50000, 40]⟩ : Shape).Idx → EReal)
    (hnorm : ∀ (t : Fin cfg2.N) (r : Fin 2000) (k : Fin 96), k2_pay1 (F := Ideal) (iblk2 V c 0 t) (ix2 r k) = o (ix2 (Cert.KernelIdeal.Region2.rowOf t r) k))
    (h6 : V c main_arg6 = w) (h30 : ∀ j : Fin 40, V c main_v30 (ix2 (0 : Fin 1) j) = bv (ix1 j))
    (hP : ∀ (R : Fin 50000) (j : Fin 40), P (ix2 R j) = Cert.KernelIdeal.Region2.classify o w (fun q => bv (ix1 q)) (ix2 R j))
    (t : Fin cfg2.N) :
    (dat2 V c).flushed 4 t = ((cfg2.win 4).blk t).view.read (Elt Ideal) P := by
  show (cfg2.win 4).cut (grid2.coords t) ((dat2 V c).after 4 t) = _
  rw [after2_4]
  unfold out2_4
  rw [View.canon_unit_zero Cert.KernelIdeal.Region2.hz]
  simp only [View.ld_unit_zero (S := S2000x96) Cert.KernelIdeal.Region2.hz, View.ld_unit_zero (S := S96x40) Cert.KernelIdeal.Region2.hz, View.ld_unit_zero (S := S1x40) Cert.KernelIdeal.Region2.hz]
  funext y
  obtain ⟨r, j, rfl⟩ : ∃ (r : Fin 2000) (j : Fin 40), y = ix2 r j := ⟨y 0, y 1, eq_ix2 y⟩
  show k2_pay2 (F := Ideal) (iblk2 V c 0 t) (iblk2 V c 1 t) (iblk2 V c 2 t) (ix2 r j) = P (((cfg2.win 4).blk t).view.emb (ix2 r j))
  rw [Cert.KernelIdeal.Region2.emb4, hP, classify_row]
  refine (probs_block (iblk2 V c 0 t) (iblk2 V c 1 t) (iblk2 V c 2 t) r j).trans ?_
  refine congrArg (fun ℓ : Fin 40 → EReal => softmaxRow ℓ j) (funext fun j' => ?_)
  unfold Cert.KernelIdeal.Region2.score
  refine congrArg₂ (fun p q : EReal => p + q) (Finset.sum_congr rfl fun k _ => ?_) ?_
  · exact congrArg₂ (fun p q : EReal => p * q) (hnorm t r k) ((Cert.KernelIdeal.Region2.iblk1_apply V c t k j').trans (congrFun h6 (ix2 k j')))
  · exact (Cert.KernelIdeal.Region2.iblk2_apply V c t (0 : Fin 1) j').trans (h30 j')

/-- The second result array after the 25 write-backs is P. -/
theorem probs_array (c : Dev nD) (o : (⟨2, ![50000, 96]⟩ : Shape).Idx → EReal) (w : (⟨2, ![96, 40]⟩ : Shape).Idx → EReal) (bv : (⟨1, ![40]⟩ : Shape).Idx → EReal) (P : (⟨2, ![50000, 40]⟩ : Shape).Idx → EReal)
    (hnorm : ∀ (t : Fin cfg2.N) (r : Fin 2000) (k : Fin 96), k2_pay1 (F := Ideal) (iblk2 V c 0 t) (ix2 r k) = o (ix2 (Cert.KernelIdeal.Region2.rowOf t r) k))
    (h6 : V c main_arg6 = w) (h30 : ∀ j : Fin 40, V c main_v30 (ix2 (0 : Fin 1) j) = bv (ix1 j))
    (hP : ∀ (R : Fin 50000) (j : Fin 40), P (ix2 R j) = Cert.KernelIdeal.Region2.classify o w (fun q => bv (ix1 q)) (ix2 R j)) :
    (dat2 V c).arrAt 4 cfg2.N = P :=
  (dat2 V c).arrAt_eq_of_cover 4 P (fun t _ => flushed4 V c o w bv P hnorm h6 h30 hP t) Cert.KernelIdeal.Region2.cover4

/-- The second result array is the reference's last stage of the argument arrays, when the region finds the reference's
    second aggregate as its features, wc as its weights and the bias as one row. -/
theorem probs_value (c : Dev nD) (x0 x1 : (⟨Cert.ReferenceIdeal.S800000, .i32⟩ : BufTy).Contents (Elt Ideal)) (x2 : (⟨Cert.ReferenceIdeal.S800000, .f32⟩ : BufTy).Contents (Elt Ideal)) (x3 : (⟨Cert.ReferenceIdeal.S50000x96, .f32⟩ : BufTy).Contents (Elt Ideal)) (x4 x5 : (⟨Cert.ReferenceIdeal.S96x96, .f32⟩ : BufTy).Contents (Elt Ideal)) (x6 : (⟨Cert.ReferenceIdeal.S96x40, .f32⟩ : BufTy).Contents (Elt Ideal)) (x7 : (⟨Cert.ReferenceIdeal.S40, .f32⟩ : BufTy).Contents (Elt Ideal))
    (h29 : V c main_v29 = Cert.ReferenceIdeal.Read.val_main_v29 (F := Ideal) x0 x1 x2 x3 x4 x5) (h6 : V c main_arg6 = x6)
    (h30 : ∀ j : Fin 40, V c main_v30 (ix2 (0 : Fin 1) j) = x7 (ix1 j)) :
    (dat2 V c).arrAt 4 cfg2.N = Cert.ReferenceIdeal.Read.val_main_v52 (F := Ideal) x0 x1 x2 x3 x4 x5 x6 x7 :=
  probs_array V c (Cert.ReferenceIdeal.Read.val_main_v37 (F := Ideal) x0 x1 x2 x3 x4 x5) x6 x7 (Cert.ReferenceIdeal.Read.val_main_v52 (F := Ideal) x0 x1 x2 x3 x4 x5 x6 x7)
    (fun t r k => (Cert.KernelIdeal.Region2.normalized_entry V c x0 x1 x2 x3 x4 x5 h29 t r k).trans
      (congrArg (Cert.ReferenceIdeal.Read.val_main_v37 (F := Ideal) x0 x1 x2 x3 x4 x5) (Cert.KernelIdeal.Region2.emb3 t r k)))
    h6 h30 (fun R j => Cert.KernelIdeal.Region2.ref52_apply x0 x1 x2 x3 x4 x5 x6 x7 R j)

end Array

end Cert.KernelIdeal.Classifier

end
-- ==== Proof.lean ====
/-
  A graph network of two aggregation layers, a row normalization and a softmax classifier: the kernel program against
  its reference, over the extended reals.

  The kernel program runs three pipelined kernels — x · w1, (first aggregate) · w2, and the normalization with the
  classifier — with the aggregation over the graph's edges done by host operations between them; the reference does
  everything by host operations on whole arrays. At the ideal values the two agree stage by stage: a kernel's product
  of a block of 2000 rows is that block of rows of the whole product (rounding the operands to bf16 is the identity, the
  accumulator is zero); the aggregation stretches are the same operations applied to equal arrays; the normalization and
  the softmax are row-wise, so a block of rows of the result is the same function of the block of rows. No law of the
  extended reals beyond 0 + x = x is used, so the finiteness of the inputs is never opened.

  The three frames are the generated frame certificates (the reference's is its generated run with the results
  dropped); the ideal pass rewrote nothing, so there is nothing to preserve.
-/
import proofs.«108269_j85718957294354_1_alg».proof.Defs
import proofs.«108269_j85718957294354_1_alg».proof.Proof.Gen.Kernel
import proofs.«108269_j85718957294354_1_alg».proof.Proof.Gen.Kernel.Skeleton
import proofs.«108269_j85718957294354_1_alg».proof.Proof.Gen.Kernel.Launch
import proofs.«108269_j85718957294354_1_alg».proof.Proof.Gen.Kernel.Points
import proofs.«108269_j85718957294354_1_alg».proof.Proof.Gen.Kernel.Frame
import proofs.«108269_j85718957294354_1_alg».proof.Proof.Gen.KernelIdeal
import proofs.«108269_j85718957294354_1_alg».proof.Proof.Gen.KernelIdeal.Skeleton
import proofs.«108269_j85718957294354_1_alg».proof.Proof.Gen.KernelIdeal.Launch
import proofs.«108269_j85718957294354_1_alg».proof.Proof.Gen.KernelIdeal.Points
import proofs.«108269_j85718957294354_1_alg».proof.Proof.Gen.KernelIdeal.Frame
import proofs.«108269_j85718957294354_1_alg».proof.Proof.Gen.ReferenceIdeal
import proofs.«108269_j85718957294354_1_alg».proof.Proof.Gen.ReferenceIdeal.Run
import proofs.«108269_j85718957294354_1_alg».proof.Proof.Gen.ReferenceIdeal.Read
import proofs.«108269_j85718957294354_1_alg».proof.Proof.Gen.Pre_finite_inputs
import proofs.«108269_j85718957294354_1_alg».proof.Proof.KernelValue
import proofs.«108269_j85718957294354_1_alg».proof.Proof.Region2Out
import proofs.«108269_j85718957294354_1_alg».proof.Proof.Region2Probs
import Idealize.ShloMosaic.Adequacy
import Idealize.ShloMosaic.Init

set_option maxRecDepth 16384

noncomputable section

namespace Cert.Proof

open Idealize.ShloMosaic Idealize.SL.Sem

/-- The word-level kernel's frame: the generated several-region frame certificate. -/
theorem frame_kernel : Cert.frame_Kernel := fun m ρ _ => Cert.Kernel.Gen.frame m ρ

/-- The idealized kernel's frame, likewise. -/
theorem frame_kernel_ideal : Cert.frame_KernelIdeal := fun m ρ _ => Cert.KernelIdeal.Gen.frame m ρ

/-- The reference's frame: its generated run with the two results dropped. -/
theorem frame_reference_ideal : Cert.frame_ReferenceIdeal := fun m ρ _ =>
  (θ_run Cert.ReferenceIdeal.defs _ _).mono (fun _ h c => (h c).2.2) (Cert.ReferenceIdeal.Value.run (F := Ideal) m ρ)

/-- The ideal pass rewrote no operation of this kernel: nothing to preserve. -/
theorem preserves : Cert.preserves_Kernel_KernelIdeal := trivial

/-- Both idealized programs end with the reference's two stages of the argument arrays in their result buffers: the
    kernel by the boundary-by-boundary reading of its run, the reference by its generated run. -/
theorem algebraic : Cert.algebraic_KernelIdeal_ReferenceIdeal := by
  intro m ρ m' ρ' _ hagree
  refine ⟨fun c => Cert.ReferenceIdeal.Read.val_main_v37 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)),
    fun c => Cert.ReferenceIdeal.Read.val_main_v52 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · refine (θ_run Cert.KernelIdeal.defs _ _).mono (fun r h c => ?_) (Cert.KernelIdeal.LastBoundary.run_results (F := Ideal) m ρ)
    obtain ⟨h0, h1, hargs⟩ := h c
    have hv := Cert.KernelIdeal.Values.results m ρ Cert.KernelIdeal.Region2.out_value Cert.KernelIdeal.Classifier.probs_value c
    exact ⟨h0.trans hv.1, h1.trans hv.2, hargs⟩
  · refine (θ_run Cert.ReferenceIdeal.defs _ _).mono (fun r h c => ?_) (Cert.ReferenceIdeal.Value.run (F := Ideal) m' ρ')
    obtain ⟨h0, h1, hargs⟩ := h c
    obtain ⟨e0, e1, e2, e3, e4, e5, e6, e7⟩ := hagree c
    refine ⟨h0.trans ?_, h1.trans ?_, hargs⟩
    · rw [Cert.ReferenceIdeal.Read.val_main_v37_eq, e0, e1, e2, e3, e4, e5]
    · rw [Cert.ReferenceIdeal.Read.val_main_v52_eq, e0, e1, e2, e3, e4, e5, e6, e7]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
